-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v136)) (v1 : (c : Dev Cert.KernelIdeal.nD) → Buf (Elt Ideal) ((c.tc : Thread Cert.KernelIdeal.nD Cert.KernelIdeal.τ).loc Cert.KernelIdeal.main_v135)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v136) = v0 c
          ∧ r.2.mem ((c.tc : Thread Cert.KernelIdeal.nD Cert.KernelIdeal.τ).loc Cert.KernelIdeal.main_v135) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v155) = v0 c
          ∧ r.2.mem ((c.tc : Thread Cert.ReferenceIdeal.nD Cert.ReferenceIdeal.τ).loc Cert.ReferenceIdeal.main_v139) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S200000x64 : Shape := ⟨2, ![200000, 64]⟩
abbrev S64x64 : Shape := ⟨2, ![64, 64]⟩
abbrev S1600000 : Shape := ⟨1, ![1600000]⟩
abbrev S2000000 : Shape := ⟨1, ![2000000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S200000x64 : S_.BroadcastsInDim S200000x64 (![] : Fin 0 → Fin S200000x64.rank)
  reducesTo_S200000x64_S_d0_1 : S200000x64.ReducesTo [0, 1] S_
  bcast_S_S64x64 : S_.BroadcastsInDim S64x64 (![] : Fin 0 → Fin S64x64.rank)
  reducesTo_S64x64_S_d0_1 : S64x64.ReducesTo [0, 1] S_
  bcast_S_S1600000 : S_.BroadcastsInDim S1600000 (![] : Fin 0 → Fin S1600000.rank)
  reducesTo_S1600000_S_d0 : S1600000.ReducesTo [0] S_
  bcast_S_S2000000 : S_.BroadcastsInDim S2000000 (![] : Fin 0 → Fin S2000000.rank)
  reducesTo_S2000000_S_d0 : S2000000.ReducesTo [0] S_

variable [Facts]

def fn_part1 {F : FTy → Type} [FloatOps F] (main_arg6 : FVec F S1600000 .f32) (main_arg9 : FVec F S2000000 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S1600000 .f32 := Host.absf main_arg6
  let main_cst_6 : FVec F S_ .f32 := constant S_ .f32 0x7F800000#32
  let main_v20 : FVec F S1600000 .f32 := broadcastInDim S1600000 ![] bcast_S_S1600000 main_cst_6
  let main_v21 : IVec S1600000 1 := cmpf .olt main_v19 main_v20
  let main_c_7 : IVec S_ 1 := constantI S_ 1 1#1
  let main_v22 : IVec S_ 1 := (fun x v => Host.reduce IntOp.andi x v reducesTo_S1600000_S_d0 h_S_) main_v21 main_c_7
  let main_v23 : IVec S_ 1 := andi main_v18 main_v22
  let main_v24 : FVec F S2000000 .f32 := Host.absf main_arg9
  let main_cst_8 : FVec F S_ .f32 := constant S_ .f32 0x7F800000#32
  let main_v25 : FVec F S2000000 .f32 := broadcastInDim S2000000 ![] bcast_S_S2000000 main_cst_8
  let main_v26 : IVec S2000000 1 := cmpf .olt main_v24 main_v25
  let main_c_9 : IVec S_ 1 := constantI S_ 1 1#1
  let main_v27 : IVec S_ 1 := (fun x v => Host.reduce IntOp.andi x v reducesTo_S2000000_S_d0 h_S_) main_v26 main_c_9
  let main_v28 : IVec S_ 1 := andi main_v23 main_v27
  main_v28

def fn {F : FTy → Type} [FloatOps F] (main_arg0 : FVec F S100000x64 .f32) (main_arg1 : FVec F S200000x64 .f32) (main_arg2 : FVec F S64x64 .f32) (main_arg3 : FVec F S64x64 .f32) (main_arg4 : IVec S1600000 32) (main_arg5 : IVec S1600000 32) (main_arg6 : FVec F S1600000 .f32) (main_arg7 : IVec S2000000 32) (main_arg8 : IVec S2000000 32) (main_arg9 : FVec F S2000000 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S200000x64 .f32 := Host.absf main_arg1
  let main_cst_0 : FVec F S_ .f32 := constant S_ .f32 0x7F800000#32
  let main_v5 : FVec F S200000x64 .f32 := broadcastInDim S200000x64 ![] bcast_S_S200000x64 main_cst_0
  let main_v6 : IVec S200000x64 1 := cmpf .olt main_v4 main_v5
  let main_c_1 : IVec S_ 1 := constantI S_ 1 1#1
  let main_v7 : IVec S_ 1 := (fun x v => Host.reduce IntOp.andi x v reducesTo_S200000x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg9 main_v13 main_v16
-- ==== Kernel.lean ====
abbrev S100000x64 : Shape := ⟨2, ![100000, 64]⟩
abbrev S200000x64 : Shape := ⟨2, ![200000, 64]⟩
abbrev S64x64 : Shape := ⟨2, ![64, 64]⟩
abbrev S1600000 : Shape := ⟨1, ![1600000]⟩
abbrev S2000000 : Shape := ⟨1, ![2000000]⟩
abbrev S1600000x1 : Shape := ⟨2, ![1600000, 1]⟩
abbrev S_ : Shape := ⟨0, ![]⟩
abbrev S1600000x64 : Shape := ⟨2, ![1600000, 64]⟩
abbrev S10000x64 : Shape := ⟨2, ![10000, 64]⟩
abbrev S10000 : Shape := ⟨1, ![10000]⟩
abbrev S10000x1 : Shape := ⟨2, ![10000, 1]⟩
abbrev S100000 : Shape := ⟨1, ![100000]⟩
abbrev S300000x64 : Shape := ⟨2, ![300000, 64]⟩
abbrev S2000000x1 : Shape := ⟨2, ![2000000, 1]⟩
abbrev S2000000x64 : Shape := ⟨2, ![2000000, 64]⟩
abbrev S5000x64 : Shape := ⟨2, ![5000, 64]⟩

abbrev nBuf : Space → Nat
  | .hbm => 188
  | .vmem => 12
  | .smem => 0
  | _ => 0

abbrev hbmTy0_0 (i : Nat) : BufTy := match i % 128 with
  | 0 => ⟨S100000x64, .f32⟩
  | 1 => ⟨S200000x64, .f32⟩
  | 2 => ⟨S64x64, .f32⟩
  | 3 => ⟨S64x64, .f32⟩
  | 4 => ⟨S1600000, .i32⟩
  | 5 => ⟨S1600000, .i32⟩
  | 6 => ⟨S1600000, .f32⟩
  | 7 => ⟨S2000000, .i32⟩
  | 8 => ⟨S2000000, .i32⟩
  | 9 => ⟨S2000000, .f32⟩
  | 10 => ⟨S1600000x1, .f32⟩
  | 11 => ⟨S_, .i32⟩
  | 12 => ⟨S1600000, .i32⟩
  | 13 => ⟨S1600000, .i1⟩
  | 14 => ⟨S_, .i32⟩
  | 15 => ⟨S1600000, .i32⟩
  | 16 => ⟨S1600000, .i32⟩
  | 17 => ⟨S1600000, .i32⟩
  | 18 => ⟨S1600000x1, .i32⟩
  | 19 => ⟨S1600000x64, .f32⟩
  | 20 => ⟨S1600000x64, .f32⟩
  | 21 => ⟨S1600000x64, .f32⟩
  | 22 => ⟨S_, .f32⟩
  | 23 => ⟨S100000x64, .f32⟩
  | 24 => ⟨S1600000x1, .i32⟩
  | 25 => ⟨S100000x64, .f32⟩
  | 26 => ⟨S100000x64, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000x64, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000x64, .f32⟩
  | 45 => ⟨S1600000x64, .f32⟩
  | 46 => ⟨S_, .f32⟩
  | 47 => ⟨S1600000, .f32⟩
  | 48 => ⟨S_, .f32⟩
  | 49 => ⟨S1600000, .f32⟩
  | 50 => ⟨S1600000, .f32⟩
  | 51 => ⟨S_, .f32⟩
  | 52 => ⟨S1600000, .f32⟩
  | 53 => ⟨S1600000, .f32⟩
  | 54 => ⟨S_, .f32⟩
  | 55 => ⟨S_, .f32⟩
  | 56 => ⟨S_, .f32⟩
  | 57 => ⟨S_, .f32⟩
  | 58 => ⟨S_, .f32⟩
  | 59 => ⟨S_, .i1⟩
  | 60 => ⟨S_, .f32⟩
  | 61 => ⟨S_, .f32⟩
  | 62 => ⟨S_, .f32⟩
  | 63 => ⟨S_, .f32⟩
  | 64 => ⟨S1600000, .f32⟩
  | 65 => ⟨S1600000, .i1⟩
  | 66 => ⟨S_, .f32⟩
  | 67 => ⟨S_, .f32⟩
  | 68 => ⟨S1600000, .f32⟩
  | 69 => ⟨S1600000, .f32⟩
  | 70 => ⟨S_, .f32⟩
  | 71 => ⟨S100000, .f32⟩
  | 72 => ⟨S1600000x1, .i32⟩
  | 73 => ⟨S100000, .f32⟩
  | 74 => ⟨S_, .f32⟩
  | 75 => ⟨S100000, .f32⟩
  | 76 => ⟨S100000, .f32⟩
  | 77 => ⟨S_, .f32⟩
  | 78 => ⟨S100000, .f32⟩
  | 79 => ⟨S100000, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000, .f32⟩
  | 89 => ⟨S1600000, .f32⟩
  | 90 => ⟨S_, .f32⟩
  | 91 => ⟨S100000x64, .f32⟩
  | 92 => ⟨S1600000x1, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000x64, .f32⟩
  | 102 => ⟨S1600000x64, .f32⟩
  | 103 => ⟨S1600000x64, .f32⟩
  | 104 => ⟨S_, .f32⟩
  | 105 => ⟨S100000x64, .f32⟩
  | 106 => ⟨S1600000x1, .i32⟩
  | 107 => ⟨S100000x64, .f32⟩
  | 108 => ⟨S100000x64, .f32⟩
  | 109 => ⟨S1600000x1, .f32⟩
  | 110 => ⟨S_, .i32⟩
  | 111 => ⟨S1600000, .i32⟩
  | 112 => ⟨S1600000, .i1⟩
  | 113 => ⟨S_, .i32⟩
  | 114 => ⟨S1600000, .i32⟩
  | 115 => ⟨S1600000, .i32⟩
  | 116 => ⟨S1600000, .i32⟩
  | 117 => ⟨S1600000x1, .i32⟩
  | 118 => ⟨S1600000x64, .f32⟩
  | 119 => ⟨S1600000x64, .f32⟩
  | 120 => ⟨S1600000x64, .f32⟩
  | 121 => ⟨S_, .f32⟩
  | 122 => ⟨S100000x64, .f32⟩
  | 123 => ⟨S1600000x1, .i32⟩
  | 124 => ⟨S100000x64, .f32⟩
  | 125 => ⟨S100000x64, .f32⟩
  | 126 => ⟨S1600000x1, .f32⟩
  | 127 => ⟨S_, .i32⟩
  | _ => ⟨S100000x64, .f32⟩

abbrev hbmTy0_1 (i : Nat) : BufTy := match i % 128 with
  | 0 => ⟨S1600000, .i32⟩
  | 1 => ⟨S1600000, .i1⟩
  | 2 => ⟨S_, .i32⟩
  | 3 => ⟨S1600000, .i32⟩
  | 4 => ⟨S1600000, .i32⟩
  | 5 => ⟨S1600000, .i32⟩
  | 6 => ⟨S1600000x1, .i32⟩
  | 7 => ⟨S1600000x64, .f32⟩
  | 8 => ⟨S1600000x64, .f32⟩
  | 9 => ⟨S1600000x64, .f32⟩
  | 10 => ⟨S_, .f32⟩
  | 11 => ⟨S100000x64, .f32⟩
  | 12 => ⟨S1600000x1, .i32⟩
  | 13 => ⟨S100000x64, .f32⟩
  | 14 => ⟨S100000x64, .f32⟩
  | 15 => ⟨S_, .f32⟩
  | 16 => ⟨S100000x64, .f32⟩
  | 17 => ⟨S100000x64, .f32⟩
  | 18 => ⟨S100000x64, .f32⟩
  | 19 => ⟨S300000x64, .f32⟩
  | 20 => ⟨S2000000x1, .f32⟩
  | 21 => ⟨S_, .i32⟩
  | 22 => ⟨S2000000, .i32⟩
  | 23 => ⟨S2000000, .i1⟩
  | 24 => ⟨S_, .i32⟩
  | 25 => ⟨S2000000, .i32⟩
  | 26 => ⟨S2000000, .i32⟩
  | 27 => ⟨S2000000, .i32⟩
  | 28 => ⟨S2000000x1, .i32⟩
  | 29 => ⟨S2000000x64, .f32⟩
  | 30 => ⟨S2000000x64, .f32⟩
  | 31 => ⟨S2000000x64, .f32⟩
  | 32 => ⟨S_, .f32⟩
  | 33 => ⟨S300000x64, .f32⟩
  | 34 => ⟨S2000000x1, .i32⟩
  | 35 => ⟨S300000x64, .f32⟩
  | 36 => ⟨S300000x64, .f32⟩
  | 37 => ⟨S2000000x1, .f32⟩
  | 38 => ⟨S_, .i32⟩
  | 39 => ⟨S2000000, .i32⟩
  | 40 => ⟨S2000000, .i1⟩
  | 41 => ⟨S_, .i32⟩
  | 42 => ⟨S2000000, .i32⟩
  | 43 => ⟨S2000000, .i32⟩
  | 44 => ⟨S2000000, .i32⟩
  | 45 => ⟨S2000000x1, .i32⟩
  | 46 => ⟨S2000000x64, .f32⟩
  | 47 => ⟨S2000000x64, .f32⟩
  | 48 => ⟨S2000000x64, .f32⟩
  | 49 => ⟨S_, .f32⟩
  | 50 => ⟨S300000x64, .f32⟩
  | 51 => ⟨S2000000x1, .i32⟩
  | 52 => ⟨S300000x64, .f32⟩
  | 53 => ⟨S300000x64, .f32⟩
  | 54 => ⟨S_, .f32⟩
  | 55 => ⟨S300000x64, .f32⟩
  | 56 => ⟨S300000x64, .f32⟩
  | 57 => ⟨S100000x64, .f32⟩
  | 58 => ⟨S200000x64, .f32⟩
  | 59 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S64x64, .f32⟩
  | .local _ .vmem, ⟨9, _⟩ => ⟨S64x64, .f32⟩
  | .local _ .vmem, ⟨10, _⟩ => ⟨S5000x64, .f32⟩
  | .local _ .vmem, ⟨11, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_c_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_v33 : Ref sig .tc := ⟨.hbm, 53, rfl⟩
abbrev main_cst_8 : Ref sig .tc := ⟨.hbm, 54, rfl⟩
abbrev main_v34 : Ref sig .tc := ⟨.hbm, 55, rfl⟩
abbrev main_cst_9 : Ref sig .tc := ⟨.hbm, 56, rfl⟩
abbrev main_v35 : Ref sig .tc := ⟨.hbm, 57, rfl⟩
abbrev main_cst_10 : Ref sig .tc := ⟨.hbm, 58, rfl⟩
abbrev main_v36 : Ref sig .tc := ⟨.hbm, 59, rfl⟩
abbrev main_cst_11 : Ref sig .tc := ⟨.hbm, 60, rfl⟩
abbrev main_cst_12 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_13 : Ref sig .tc := ⟨.hbm, 66, rfl⟩
abbrev main_call1_v0 : Ref sig .tc := ⟨.hbm, 67, rfl⟩
abbrev main_call1_v1 : Ref sig .tc := ⟨.hbm, 68, rfl⟩
abbrev main_v41 : Ref sig .tc := ⟨.hbm, 69, rfl⟩
abbrev main_cst_14 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_15 : Ref sig .tc := ⟨.hbm, 74, rfl⟩
abbrev main_v45 : Ref sig .tc := ⟨.hbm, 75, rfl⟩
abbrev main_v46 : Ref sig .tc := ⟨.hbm, 76, rfl⟩
abbrev main_cst_16 : Ref sig .tc := ⟨.hbm, 77, rfl⟩
abbrev main_v47 : Ref sig .tc := ⟨.hbm, 78, rfl⟩
abbrev main_v48 : Ref sig .tc := ⟨.hbm, 79, rfl⟩
abbrev main_c_17 : Ref sig .tc := ⟨.hbm, 80, rfl⟩
abbrev main_v49 : Ref sig .tc := ⟨.hbm, 81, rfl⟩
abbrev main_v50 : Ref sig .tc := ⟨.hbm, 82, rfl⟩
abbrev main_c_18 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_19 : Ref sig .tc := ⟨.hbm, 90, rfl⟩
abbrev main_v57 : Ref sig .tc := ⟨.hbm, 91, rfl⟩
abbrev main_v58 : Ref sig .tc := ⟨.hbm, 92, rfl⟩
abbrev main_c_20 : Ref sig .tc := ⟨.hbm, 93, rfl⟩
abbrev main_v59 : Ref sig .tc := ⟨.hbm, 94, rfl⟩
abbrev main_v60 : Ref sig .tc := ⟨.hbm, 95, rfl⟩
abbrev main_c_21 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_cst_22 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_c_23 : Ref sig .tc := ⟨.hbm, 110, rfl⟩
abbrev main_v73 : Ref sig .tc := ⟨.hbm, 111, rfl⟩
abbrev main_v74 : Ref sig .tc := ⟨.hbm, 112, rfl⟩
abbrev main_c_24 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_25 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_c_26 : Ref sig .tc := ⟨.hbm, 127, rfl⟩
abbrev main_v87 : Ref sig .tc := ⟨.hbm, 128, rfl⟩
abbrev main_v88 : Ref sig .tc := ⟨.hbm, 129, rfl⟩
abbrev main_c_27 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_cst_28 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_cst_29 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_c_30 : Ref sig .tc := ⟨.hbm, 149, rfl⟩
abbrev main_v105 : Ref sig .tc := ⟨.hbm, 150, rfl⟩
abbrev main_v106 : Ref sig .tc := ⟨.hbm, 151, rfl⟩
abbrev main_c_31 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_cst_32 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_c_33 : Ref sig .tc := ⟨.hbm, 166, rfl⟩
abbrev main_v119 : Ref sig .tc := ⟨.hbm, 167, rfl⟩
abbrev main_v120 : Ref sig .tc := ⟨.hbm, 168, rfl⟩
abbrev main_c_34 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_cst_35 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_cst_36 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  reduces_S10000x64_S10000 : S10000x64.Reduces [1] S10000
  shapeCasts_S10000_S10000x1 : S10000.ShapeCasts S10000x1
  broadcasts_S10000x1_S10000x64 : S10000x1.Broadcasts S10000x64
  reducesTo_S1600000x64_S1600000_d1 : S1600000x64.ReducesTo [1] S1600000
  h_S_ : 0 < S_.numel
  reducesTo_S1600000_S_d0 : S1600000.ReducesTo [0] S_
  bcast_S_S100000 : S_.BroadcastsInDim S100000 (![] : Fin 0 → Fin S100000.rank)
  concatenates_S100000x64_S200000x64_S300000x64_d0 : Shape.Concatenates [S100000x64, S200000x64] S300000x64 0
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S2000000x1_S2000000x64_0_1 : S2000000x1.BroadcastsInDim S2000000x64 (![0, 1] : Fin 2 → Fin S2000000x64.rank)
  bcast_S_S300000x64 : S_.BroadcastsInDim S300000x64 (![] : Fin 0 → Fin S300000x64.rank)
  slices_S300000x64_S100000x64_0_0 : S300000x64.Slices ![0, 0] S100000x64
  slices_S300000x64_S200000x64_100000_0 : S300000x64.Slices ![100000, 0] S200000x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  bitsLt_bf16_f32 : FTy.bits .bf16 < FTy.bits .f32
  transposes_S64x64_p1_0_S64x64 : S64x64.Transposes [1, 0] S64x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S300000x64_S2000000x1_S2000000x64_1_0_n_n_0_1_164_wf : GatherDims.WF S300000x64 S2000000x1 S2000000x64 [1] [0] [] [0] [] 1 ![1, 64]
  scatter_S300000x64_S2000000x1_S2000000x64_1_0_0_1_wf : ScatterDims.WF S300000x64 S2000000x1 S2000000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S300000x64_S2000000x1_S2000000x64_1_0_n_n_0_1_164 : GatherDims S300000x64 S2000000x1 S2000000x64 where
  offsetDims := [1]
  collapsedSliceDims := [0]
  operandBatchingDims := []
  startIndicesBatchingDims := []
  startIndexMap := [0]
  indexVectorDim := 1
  sliceSizes := ![1, 64]
  wf := gather_S300000x64_S2000000x1_S2000000x64_1_0_n_n_0_1_164_wf
def scatter_S300000x64_S2000000x1_S2000000x64_1_0_0_1 : ScatterDims S300000x64 S2000000x1 S2000000x64 where
  updateWindowDims := [1]
  insertedWindowDims := [0]
  scatterDimsToOperandDims := [0]
  indexVectorDim := 1
  wf := scatter_S300000x64_S2000000x1_S2000000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v12) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S10000x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v134) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v101) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v136) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x64 : Shape := ⟨2, ![100000, 64]⟩
abbrev S200000x64 : Shape := ⟨2, ![200000, 64]⟩
abbrev S64x64 : Shape := ⟨2, ![64, 64]⟩
abbrev S1600000 : Shape := ⟨1, ![1600000]⟩
abbrev S2000000 : Shape := ⟨1, ![2000000]⟩
abbrev S1600000x1 : Shape := ⟨2, ![1600000, 1]⟩
abbrev S_ : Shape := ⟨0, ![]⟩
abbrev S1600000x64 : Shape := ⟨2, ![1600000, 64]⟩
abbrev S100000 : Shape := ⟨1, ![100000]⟩
abbrev S100000x1 : Shape := ⟨2, ![100000, 1]⟩
abbrev S300000x64 : Shape := ⟨2, ![300000, 64]⟩
abbrev S2000000x1 : Shape := ⟨2, ![2000000, 1]⟩
abbrev S2000000x64 : Shape := ⟨2, ![2000000, 64]⟩

abbrev nBuf : Space → Nat
  | .hbm => 215
  | .vmem => 0
  | .smem => 0
  | _ => 0

abbrev hbmTy0_0 (i : Nat) : BufTy := match i % 128 with
  | 0 => ⟨S100000x64, .f32⟩
  | 1 => ⟨S200000x64, .f32⟩
  | 2 => ⟨S64x64, .f32⟩
  | 3 => ⟨S64x64, .f32⟩
  | 4 => ⟨S1600000, .i32⟩
  | 5 => ⟨S1600000, .i32⟩
  | 6 => ⟨S1600000, .f32⟩
  | 7 => ⟨S2000000, .i32⟩
  | 8 => ⟨S2000000, .i32⟩
  | 9 => ⟨S2000000, .f32⟩
  | 10 => ⟨S1600000x1, .f32⟩
  | 11 => ⟨S_, .i32⟩
  | 12 => ⟨S1600000, .i32⟩
  | 13 => ⟨S1600000, .i1⟩
  | 14 => ⟨S_, .i32⟩
  | 15 => ⟨S1600000, .i32⟩
  | 16 => ⟨S1600000, .i32⟩
  | 17 => ⟨S1600000, .i32⟩
  | 18 => ⟨S1600000x1, .i32⟩
  | 19 => ⟨S1600000x64, .f32⟩
  | 20 => ⟨S1600000x64, .f32⟩
  | 21 => ⟨S1600000x64, .f32⟩
  | 22 => ⟨S_, .f32⟩
  | 23 => ⟨S100000x64, .f32⟩
  | 24 => ⟨S1600000x1, .i32⟩
  | 25 => ⟨S100000x64, .f32⟩
  | 26 => ⟨S100000x64, .f32⟩
  | 27 => ⟨S_, .f32⟩
  | 28 => ⟨S100000, .f32⟩
  | 29 => ⟨S100000x1, .f32⟩
  | 30 => ⟨S100000x1, .f32⟩
  | 31 => ⟨S_, .f32⟩
  | 32 => ⟨S100000x1, .f32⟩
  | 33 => ⟨S100000x1, .f32⟩
  | 34 => ⟨S100000x64, .f32⟩
  | 35 => ⟨S100000x64, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000x64, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000x64, .f32⟩
  | 54 => ⟨S1600000x64, .f32⟩
  | 55 => ⟨S_, .f32⟩
  | 56 => ⟨S1600000, .f32⟩
  | 57 => ⟨S_, .f32⟩
  | 58 => ⟨S1600000, .f32⟩
  | 59 => ⟨S1600000, .f32⟩
  | 60 => ⟨S_, .f32⟩
  | 61 => ⟨S1600000, .f32⟩
  | 62 => ⟨S1600000, .f32⟩
  | 63 => ⟨S_, .f32⟩
  | 64 => ⟨S_, .f32⟩
  | 65 => ⟨S_, .f32⟩
  | 66 => ⟨S_, .f32⟩
  | 67 => ⟨S_, .f32⟩
  | 68 => ⟨S_, .i1⟩
  | 69 => ⟨S_, .f32⟩
  | 70 => ⟨S_, .f32⟩
  | 71 => ⟨S_, .f32⟩
  | 72 => ⟨S_, .f32⟩
  | 73 => ⟨S1600000, .f32⟩
  | 74 => ⟨S1600000, .i1⟩
  | 75 => ⟨S_, .f32⟩
  | 76 => ⟨S_, .f32⟩
  | 77 => ⟨S1600000, .f32⟩
  | 78 => ⟨S1600000, .f32⟩
  | 79 => ⟨S_, .f32⟩
  | 80 => ⟨S100000, .f32⟩
  | 81 => ⟨S1600000x1, .i32⟩
  | 82 => ⟨S100000, .f32⟩
  | 83 => ⟨S_, .f32⟩
  | 84 => ⟨S100000, .f32⟩
  | 85 => ⟨S100000, .f32⟩
  | 86 => ⟨S_, .f32⟩
  | 87 => ⟨S100000, .f32⟩
  | 88 => ⟨S100000, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000, .f32⟩
  | 98 => ⟨S1600000, .f32⟩
  | 99 => ⟨S_, .f32⟩
  | 100 => ⟨S100000x64, .f32⟩
  | 101 => ⟨S1600000x1, .f32⟩
  | 102 => ⟨S_, .i32⟩
  | 103 => ⟨S1600000, .i32⟩
  | 104 => ⟨S1600000, .i1⟩
  | 105 => ⟨S_, .i32⟩
  | 106 => ⟨S1600000, .i32⟩
  | 107 => ⟨S1600000, .i32⟩
  | 108 => ⟨S1600000, .i32⟩
  | 109 => ⟨S1600000x1, .i32⟩
  | 110 => ⟨S1600000x64, .f32⟩
  | 111 => ⟨S1600000x64, .f32⟩
  | 112 => ⟨S1600000x64, .f32⟩
  | 113 => ⟨S_, .f32⟩
  | 114 => ⟨S100000x64, .f32⟩
  | 115 => ⟨S1600000x1, .i32⟩
  | 116 => ⟨S100000x64, .f32⟩
  | 117 => ⟨S100000x64, .f32⟩
  | 118 => ⟨S1600000x1, .f32⟩
  | 119 => ⟨S_, .i32⟩
  | 120 => ⟨S1600000, .i32⟩
  | 121 => ⟨S1600000, .i1⟩
  | 122 => ⟨S_, .i32⟩
  | 123 => ⟨S1600000, .i32⟩
  | 124 => ⟨S1600000, .i32⟩
  | 125 => ⟨S1600000, .i32⟩
  | 126 => ⟨S1600000x1, .i32⟩
  | 127 => ⟨S1600000x64, .f32⟩
  | _ => ⟨S100000x64, .f32⟩

abbrev hbmTy0_1 (i : Nat) : BufTy := match i % 128 with
  | 0 => ⟨S1600000x64, .f32⟩
  | 1 => ⟨S1600000x64, .f32⟩
  | 2 => ⟨S_, .f32⟩
  | 3 => ⟨S100000x64, .f32⟩
  | 4 => ⟨S1600000x1, .i32⟩
  | 5 => ⟨S100000x64, .f32⟩
  | 6 => ⟨S100000x64, .f32⟩
  | 7 => ⟨S1600000x1, .f32⟩
  | 8 => ⟨S_, .i32⟩
  | 9 => ⟨S1600000, .i32⟩
  | 10 => ⟨S1600000, .i1⟩
  | 11 => ⟨S_, .i32⟩
  | 12 => ⟨S1600000, .i32⟩
  | 13 => ⟨S1600000, .i32⟩
  | 14 => ⟨S1600000, .i32⟩
  | 15 => ⟨S1600000x1, .i32⟩
  | 16 => ⟨S1600000x64, .f32⟩
  | 17 => ⟨S1600000x64, .f32⟩
  | 18 => ⟨S1600000x64, .f32⟩
  | 19 => ⟨S_, .f32⟩
  | 20 => ⟨S100000x64, .f32⟩
  | 21 => ⟨S1600000x1, .i32⟩
  | 22 => ⟨S100000x64, .f32⟩
  | 23 => ⟨S100000x64, .f32⟩
  | 24 => ⟨S_, .f32⟩
  | 25 => ⟨S100000x64, .f32⟩
  | 26 => ⟨S100000x64, .f32⟩
  | 27 => ⟨S100000x64, .f32⟩
  | 28 => ⟨S300000x64, .f32⟩
  | 29 => ⟨S2000000x1, .f32⟩
  | 30 => ⟨S_, .i32⟩
  | 31 => ⟨S2000000, .i32⟩
  | 32 => ⟨S2000000, .i1⟩
  | 33 => ⟨S_, .i32⟩
  | 34 => ⟨S2000000, .i32⟩
  | 35 => ⟨S2000000, .i32⟩
  | 36 => ⟨S2000000, .i32⟩
  | 37 => ⟨S2000000x1, .i32⟩
  | 38 => ⟨S2000000x64, .f32⟩
  | 39 => ⟨S2000000x64, .f32⟩
  | 40 => ⟨S2000000x64, .f32⟩
  | 41 => ⟨S_, .f32⟩
  | 42 => ⟨S300000x64, .f32⟩
  | 43 => ⟨S2000000x1, .i32⟩
  | 44 => ⟨S300000x64, .f32⟩
  | 45 => ⟨S300000x64, .f32⟩
  | 46 => ⟨S2000000x1, .f32⟩
  | 47 => ⟨S_, .i32⟩
  | 48 => ⟨S2000000, .i32⟩
  | 49 => ⟨S2000000, .i1⟩
  | 50 => ⟨S_, .i32⟩
  | 51 => ⟨S2000000, .i32⟩
  | 52 => ⟨S2000000, .i32⟩
  | 53 => ⟨S2000000, .i32⟩
  | 54 => ⟨S2000000x1, .i32⟩
  | 55 => ⟨S2000000x64, .f32⟩
  | 56 => ⟨S2000000x64, .f32⟩
  | 57 => ⟨S2000000x64, .f32⟩
  | 58 => ⟨S_, .f32⟩
  | 59 => ⟨S300000x64, .f32⟩
  | 60 => ⟨S2000000x1, .i32⟩
  | 61 => ⟨S300000x64, .f32⟩
  | 62 => ⟨S300000x64, .f32⟩
  | 63 => ⟨S_, .f32⟩
  | 64 => ⟨S300000x64, .f32⟩
  | 65 => ⟨S300000x64, .f32⟩
  | 66 => ⟨S100000x64, .f32⟩
  | 67 => ⟨S200000x64, .f32⟩
  | 68 => ⟨S64x64, .f32⟩
  | 69 => ⟨S100000x64, .f32⟩
  | 70 => ⟨S64x64, .f32⟩
  | 71 => ⟨S100000x64, .f32⟩
  | 72 => ⟨S100000x64, .f32⟩
  | 73 => ⟨S100000x64, .f32⟩
  | 74 => ⟨S100000x64, .f32⟩
  | 75 => ⟨S_, .f32⟩
  | 76 => ⟨S100000x64, .f32⟩
  | 77 => ⟨S100000x64, .f32⟩
  | 78 => ⟨S_, .f32⟩
  | 79 => ⟨S100000x64, .f32⟩
  | 80 => ⟨S100000x64, .f32⟩
  | 81 => ⟨S100000x64, .f32⟩
  | 82 => ⟨S_, .f32⟩
  | 83 => ⟨S100000x64, .f32⟩
  | 84 => ⟨S100000x64, .f32⟩
  | 85 => ⟨S100000x64, .f32⟩
  | 86 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_call0_v0 : Ref sig .tc := ⟨.hbm, 26, rfl⟩
abbrev main_call0_cst : Ref sig .tc := ⟨.hbm, 27, rfl⟩
abbrev main_call0_v1 : Ref sig .tc := ⟨.hbm, 28, rfl⟩
abbrev main_call0_v2 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_2 : Ref sig .tc := ⟨.hbm, 36, rfl⟩
abbrev main_v18 : Ref sig .tc := ⟨.hbm, 37, rfl⟩
abbrev main_v19 : Ref sig .tc := ⟨.hbm, 38, rfl⟩
abbrev main_c_3 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_4 : Ref sig .tc := ⟨.hbm, 45, rfl⟩
abbrev main_v25 : Ref sig .tc := ⟨.hbm, 46, rfl⟩
abbrev main_v26 : Ref sig .tc := ⟨.hbm, 47, rfl⟩
abbrev main_c_5 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_6 : Ref sig .tc := ⟨.hbm, 55, rfl⟩
abbrev main_v33 : Ref sig .tc := ⟨.hbm, 56, rfl⟩
abbrev main_cst_7 : Ref sig .tc := ⟨.hbm, 57, rfl⟩
abbrev main_v34 : Ref sig .tc := ⟨.hbm, 58, rfl⟩
abbrev main_v35 : Ref sig .tc := ⟨.hbm, 59, rfl⟩
abbrev main_cst_8 : Ref sig .tc := ⟨.hbm, 60, rfl⟩
abbrev main_v36 : Ref sig .tc := ⟨.hbm, 61, rfl⟩
abbrev main_v37 : Ref sig .tc := ⟨.hbm, 62, rfl⟩
abbrev main_cst_9 : Ref sig .tc := ⟨.hbm, 63, rfl⟩
abbrev main_v38 : Ref sig .tc := ⟨.hbm, 64, rfl⟩
abbrev main_cst_10 : Ref sig .tc := ⟨.hbm, 65, rfl⟩
abbrev main_v39 : Ref sig .tc := ⟨.hbm, 66, rfl⟩
abbrev main_cst_11 : Ref sig .tc := ⟨.hbm, 67, rfl⟩
abbrev main_v40 : Ref sig .tc := ⟨.hbm, 68, rfl⟩
abbrev main_cst_12 : Ref sig .tc := ⟨.hbm, 69, rfl⟩
abbrev main_cst_13 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_14 : Ref sig .tc := ⟨.hbm, 75, rfl⟩
abbrev main_call2_v0 : Ref sig .tc := ⟨.hbm, 76, rfl⟩
abbrev main_call2_v1 : Ref sig .tc := ⟨.hbm, 77, rfl⟩
abbrev main_v45 : Ref sig .tc := ⟨.hbm, 78, rfl⟩
abbrev main_cst_15 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_cst_16 : Ref sig .tc := ⟨.hbm, 83, rfl⟩
abbrev main_v49 : Ref sig .tc := ⟨.hbm, 84, rfl⟩
abbrev main_v50 : Ref sig .tc := ⟨.hbm, 85, rfl⟩
abbrev main_cst_17 : Ref sig .tc := ⟨.hbm, 86, rfl⟩
abbrev main_v51 : Ref sig .tc := ⟨.hbm, 87, rfl⟩
abbrev main_v52 : Ref sig .tc := ⟨.hbm, 88, rfl⟩
abbrev main_c_18 : Ref sig .tc := ⟨.hbm, 89, rfl⟩
abbrev main_v53 : Ref sig .tc := ⟨.hbm, 90, rfl⟩
abbrev main_v54 : Ref sig .tc := ⟨.hbm, 91, rfl⟩
abbrev main_c_19 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_cst_20 : Ref sig .tc := ⟨.hbm, 99, rfl⟩
abbrev main_v61 : Ref sig .tc := ⟨.hbm, 100, rfl⟩
abbrev main_v62 : Ref sig .tc := ⟨.hbm, 101, rfl⟩
abbrev main_c_21 : Ref sig .tc := ⟨.hbm, 102, rfl⟩
abbrev main_v63 : Ref sig .tc := ⟨.hbm, 103, rfl⟩
abbrev main_v64 : Ref sig .tc := ⟨.hbm, 104, rfl⟩
abbrev main_c_22 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_cst_23 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_c_24 : Ref sig .tc := ⟨.hbm, 119, rfl⟩
abbrev main_v77 : Ref sig .tc := ⟨.hbm, 120, rfl⟩
abbrev main_v78 : Ref sig .tc := ⟨.hbm, 121, rfl⟩
abbrev main_c_25 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_cst_26 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_c_27 : Ref sig .tc := ⟨.hbm, 136, rfl⟩
abbrev main_v91 : Ref sig .tc := ⟨.hbm, 137, rfl⟩
abbrev main_v92 : Ref sig .tc := ⟨.hbm, 138, rfl⟩
abbrev main_c_28 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_cst_29 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_cst_30 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_c_31 : Ref sig .tc := ⟨.hbm, 158, rfl⟩
abbrev main_v109 : Ref sig .tc := ⟨.hbm, 159, rfl⟩
abbrev main_v110 : Ref sig .tc := ⟨.hbm, 160, rfl⟩
abbrev main_c_32 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_cst_33 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_c_34 : Ref sig .tc := ⟨.hbm, 175, rfl⟩
abbrev main_v123 : Ref sig .tc := ⟨.hbm, 176, rfl⟩
abbrev main_v124 : Ref sig .tc := ⟨.hbm, 177, rfl⟩
abbrev main_c_35 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_cst_36 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_cst_37 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_cst_38 : Ref sig .tc := ⟨.hbm, 203, rfl⟩
abbrev main_v147 : Ref sig .tc := ⟨.hbm, 204, rfl⟩
abbrev main_v148 : Ref sig .tc := ⟨.hbm, 205, rfl⟩
abbrev main_cst_39 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_cst_40 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  reducesTo_S1600000x64_S1600000_d1 : S1600000x64.ReducesTo [1] S1600000
  reducesTo_S1600000_S_d0 : S1600000.ReducesTo [0] S_
  bcast_S_S100000 : S_.BroadcastsInDim S100000 (![] : Fin 0 → Fin S100000.rank)
  concatenates_S100000x64_S200000x64_S300000x64_d0 : Shape.Concatenates [S100000x64, S200000x64] S300000x64 0
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S2000000x1_S2000000x64_0_1 : S2000000x1.BroadcastsInDim S2000000x64 (![0, 1] : Fin 2 → Fin S2000000x64.rank)
  bcast_S_S300000x64 : S_.BroadcastsInDim S300000x64 (![] : Fin 0 → Fin S300000x64.rank)
  slices_S300000x64_S100000x64_0_0 : S300000x64.Slices ![0, 0] S100000x64
  slices_S300000x64_S200000x64_100000_0 : S300000x64.Slices ![100000, 0] S200000x64
  transposes_S64x64_S64x64_1_0 : S64x64.Transposes [1, 0] S64x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S300000x64_S2000000x1_S2000000x64_1_0_n_n_0_1_164_wf : GatherDims.WF S300000x64 S2000000x1 S2000000x64 [1] [0] [] [0] [] 1 ![1, 64]
  scatter_S300000x64_S2000000x1_S2000000x64_1_0_0_1_wf : ScatterDims.WF S300000x64 S2000000x1 S2000000x64 [1] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S300000x64_S2000000x1_S2000000x64_1_0_n_n_0_1_164 : GatherDims S300000x64 S2000000x1 S2000000x64 where
  offsetDims := [1]
  collapsedSliceDims := [0]
  operandBatchingDims := []
  startIndicesBatchingDims := []
  startIndexMap := [0]
  indexVectorDim := 1
  sliceSizes := ![1, 64]
  wf := gather_S300000x64_S2000000x1_S2000000x64_1_0_n_n_0_1_164_wf
def scatter_S300000x64_S2000000x1_S2000000x64_1_0_0_1 : ScatterDims S300000x64 S2000000x1 S2000000x64 where
  updateWindowDims := [1]
  insertedWindowDims := [0]
  scatterDimsToOperandDims := [0]
  indexVectorDim := 1
  wf := scatter_S300000x64_S2000000x1_S2000000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The idealized kernel's run, with what every buffer holds at the end.

  The program is a stretch of host operations, the row-normalisation call, five more stretches of host operations and
  the gating call.  Its run ends with every buffer outside the calls' staging memory at the contents of the last
  boundary: what the second call's write-backs leave in its result array, and elsewhere what the host stretches before
  it left.  In particular the first result is the second call's output array after all of its grid points, the second
  result is what the last host stretch wrote, and the arguments are as launched.
-/
import proofs.«136588_j26173530702193_2_alg».proof.Proof.Gen.KernelIdeal.Frame

set_option maxRecDepth 16384

noncomputable section

namespace Cert.KernelIdeal.RunValues

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with every buffer outside the staging memory at the
    last boundary's contents. -/
theorem run_final : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-- The run with its two results and its arguments named: the first result is the gating call's output array after
    its last grid point, the second what the host stretch before that call left, the arguments as launched. -/
theorem run_results : θ_run defs (onTc (τ := τ) (main (F := F))) ⟨m, fun _ => 0, ρ⟩ (fun r => ∀ c : Dev nD,
      r.2.mem ((c.tc : Thread nD τ).loc main_v136) = (dat1 (V7 m ρ) c).arrAt 4 cfg1.N
      ∧ r.2.mem ((c.tc : Thread nD τ).loc main_v135) = W7 m ρ c (Proc.devRef .tc main_v135)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_v136 (by decide))).trans (W8_arr m ρ c 4),
     (h c _ (mem_uc main_v135 (by decide))).trans (W8_of_ne m ρ c main_v135 (by decide)),
     (h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c),
     (h c _ (mem_uc main_arg9 (by decide))).trans (W8_main_arg9 m ρ c)⟩)
    (run_final m ρ)

end Cert.KernelIdeal.RunValues

end
-- ==== Proof.Spec.lean ====
/-
  The two dense stages of the encoder, as functions on whole arrays over the extended reals.

  Row normalisation: every row of a matrix is divided by the larger of its Euclidean length and a floor ε,
  x[r, c] / max (sqrt (Σ_k x[r, k]²)) ε.

  The gated blend: from two [A, D] matrices a and s and two [D, D] weight matrices, the logit at (r, j) is
  Σ_k a[r, k] · w1[j, k] + Σ_k s[r, k] · w2[j, k] (each weight matrix enters transposed), the gate g is its logistic
  1 / (1 + e^(-logit)), and the result is g · s[r, j] + (1 - g) · a[r, j].

  Both are stated entry by entry and generally in the extents; neither needs any entry to be finite, since the programs
  compared against them apply the same operations in the same order and only spell sums and layouts differently.
-/
import Idealize.ShloMosaic.PureOps.Ideal
import Idealize.ShloMosaic.Lib.ValueIdx

noncomputable section

open scoped BigOperators

namespace Cert.Spec

open Idealize.ShloMosaic Idealize.ShloMosaic.ValueIdx

/-- The sum of the squares of row r. -/
def rowSq {A B : ℕ} (x : FVec Ideal ⟨2, ![A, B]⟩ .f32) (r : Fin A) : EReal :=
  ∑ k : Fin B, x (ix2 r k) * x (ix2 r k)

/-- Each row divided by the larger of its Euclidean length and the floor `eps`. -/
def rowNormalize {A B : ℕ} (eps : EReal) (x : FVec Ideal ⟨2, ![A, B]⟩ .f32) : FVec Ideal ⟨2, ![A, B]⟩ .f32 :=
  fun i => Ideal.div (x i) (max (Ideal.sqrt (rowSq x (i 0))) eps)

/-- Entry (r, c) of the normalised matrix. -/
theorem rowNormalize_apply {A B : ℕ} (eps : EReal) (x : FVec Ideal ⟨2, ![A, B]⟩ .f32) (r : Fin A) (c : Fin B) :
    rowNormalize eps x (ix2 r c) = Ideal.div (x (ix2 r c)) (max (Ideal.sqrt (rowSq x r)) eps) := rfl

/-- A band of R rows of x (row p of the band being row `row p` of x), normalised on its own, has at (p, c) the whole
    matrix's normalised entry (row p, c): an entry reads only its own row. -/
theorem rowNormalize_band {A B R : ℕ} (eps : EReal) (x : FVec Ideal ⟨2, ![A, B]⟩ .f32) (xb : FVec Ideal ⟨2, ![R, B]⟩ .f32)
    (row : Fin R → Fin A) (hx : ∀ p k, xb (ix2 p k) = x (ix2 (row p) k)) (p : Fin R) (c : Fin B) :
    rowNormalize eps xb (ix2 p c) = rowNormalize eps x (ix2 (row p) c) := by
  have hs : rowSq xb p = rowSq x (row p) := by
    unfold rowSq
    simp only [hx]
  rw [rowNormalize_apply, rowNormalize_apply, hs, hx p c]

/-- The logit at (r, j): row r of a against row j of w1, plus row r of s against row j of w2. -/
def logit {A D : ℕ} (a s : FVec Ideal ⟨2, ![A, D]⟩ .f32) (w1 w2 : FVec Ideal ⟨2, ![D, D]⟩ .f32) (r : Fin A) (j : Fin D) : EReal :=
  (∑ k : Fin D, a (ix2 r k) * w1 (ix2 j k)) + ∑ k : Fin D, s (ix2 r k) * w2 (ix2 j k)

/-- The gated blend of s and a. -/
def gate {A D : ℕ} (a s : FVec Ideal ⟨2, ![A, D]⟩ .f32) (w1 w2 : FVec Ideal ⟨2, ![D, D]⟩ .f32) : FVec Ideal ⟨2, ![A, D]⟩ .f32 :=
  fun i => Ideal.logistic (logit a s w1 w2 (i 0) (i 1)) * s i + (1 - Ideal.logistic (logit a s w1 w2 (i 0) (i 1))) * a i

/-- Entry (r, j) of the blend. -/
theorem gate_apply {A D : ℕ} (a s : FVec Ideal ⟨2, ![A, D]⟩ .f32) (w1 w2 : FVec Ideal ⟨2, ![D, D]⟩ .f32) (r : Fin A) (j : Fin D) :
    gate a s w1 w2 (ix2 r j)
      = Ideal.logistic (logit a s w1 w2 r j) * s (ix2 r j) + (1 - Ideal.logistic (logit a s w1 w2 r j)) * a (ix2 r j) := rfl

/-- A band of R rows of a and of s (row p of each band being row `row p` of the whole), blended on its own with
    copies of the weight matrices, has at (p, j) the whole blend's entry (row p, j): an entry reads only row p of a and
    of s, and all of row j of each weight matrix. -/
theorem gate_band {A D R : ℕ} (a s : FVec Ideal ⟨2, ![A, D]⟩ .f32) (ab sb : FVec Ideal ⟨2, ![R, D]⟩ .f32)
    (w1 w2 w1b w2b : FVec Ideal ⟨2, ![D, D]⟩ .f32) (row : Fin R → Fin A)
    (ha : ∀ p k, ab (ix2 p k) = a (ix2 (row p) k)) (hs : ∀ p k, sb (ix2 p k) = s (ix2 (row p) k))
    (hw1 : ∀ j k, w1b (ix2 j k) = w1 (ix2 j k)) (hw2 : ∀ j k, w2b (ix2 j k) = w2 (ix2 j k)) (p : Fin R) (j : Fin D) :
    gate ab sb w1b w2b (ix2 p j) = gate a s w1 w2 (ix2 (row p) j) := by
  have hl : logit ab sb w1b w2b p j = logit a s w1 w2 (row p) j := by
    unfold logit
    simp only [ha, hs, hw1, hw2]
  rw [gate_apply, gate_apply, hl, ha p j, hs p j]

end Cert.Spec

end
-- ==== Proof.LibColumns.lean ====
/-
  Column vectors read at an index: a length-`a` vector viewed as an `[a, 1]` column and back, and a column broadcast
  along the second axis. Each is the general "same row-major position" or "trailing coordinates" reading of the layout
  operation, with both indices written out by coordinates.
-/
import Idealize.ShloMosaic.Lib.ValueLayout

namespace Cert.LibColumns

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumns
-- ==== Proof.LibRowSums.lean ====
/-
  Row sums of a matrix and the layout operations around them, read at an index — general in the extents.

  A sum along axis 1 of an `[a, b]` matrix is, at row `r`, the sum over `k < b` of the entries `(r, k)`. A kernel takes
  it as a lane reduction (its accumulator the neutral zero, which the reading drops) and casts the `[a]` result to an
  `[a, 1]` column; a host program takes it as a reduce from an initial value and lays the result out as a column by a
  broadcast along axis 0. Beside them, the host's broadcasts of a vector to a one-row matrix and of a column across the
  columns, each read at an index with both indices written out by coordinates.
-/
import Idealize.ShloMosaic.Lib.ValueLayout
import Idealize.ShloMosaic.Lib.IdealHost
import Idealize.ShloMosaic.PureOps.Ideal.Laws
import proofs.«136588_j26173530702193_2_alg».proof.Proof.LibColumns

open scoped BigOperators

namespace Cert.LibRowSums

open Idealize.ShloMosaic Idealize.ShloMosaic.ValueIdx

section Layout
variable {α : Type}

/-- An `[a]` vector broadcast along axis 0 to an `[a, 1]` column reads, at `(i, u)`, the vector at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- A `[b]` vector broadcast along axis 1 to a `[1, b]` row reads, at `(u, k)`, the vector at `k`. -/
theorem broadcastInDim_b_1b_apply {b : ℕ} (x : (⟨1, ![b]⟩ : Shape).Idx → α)
    (h : (⟨1, ![b]⟩ : Shape).BroadcastsInDim ⟨2, ![1, b]⟩ ![1]) (u : Fin 1) (k : Fin b) :
    broadcastInDim ⟨2, ![1, b]⟩ ![1] h x (ix2 u k) = x (ix1 k) := by
  refine broadcastInDim_apply ![1] h x (ix2 u k) (ix1 k) fun ax => ?_
  match ax with
  | ⟨0, _⟩ =>
    show k.val = if b = 1 then 0 else k.val
    split
    · have := k.isLt; omega
    · rfl

/-- An `[a, 1]` column broadcast across `b` columns reads, at `(p, c)`, the column's entry at `p`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply ![0, 1] h x (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    exact (if_pos rfl).symm

end Layout

/-- The source index a sum along axis 1 inserts over row `r` at coordinate `k` is `(r, k)`. -/
theorem lift_row {a b : ℕ} (h : (⟨2, ![a, b]⟩ : Shape).Reduces [1] ⟨1, ![a]⟩) (r : Fin a) (k : Fin b) :
    h.lift (ix1 r) k = ix2 r k := by
  funext c
  apply Fin.ext
  match c with
  | ⟨0, _⟩ => rfl
  | ⟨1, _⟩ => rfl

/-- A KERNEL'S ROW SUM kept as a column: the lane reduction along axis 1 of an `[a, b]` matrix, cast from `[a]` to
    `[a, 1]`, reads at `(r, u)` the sum over `k < b` of the entries `(r, k)`. -/
theorem laneSum_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (r : Fin a) (u : Fin 1) :
    shapeCast ⟨2, ![a, 1]⟩ (multiReduction .add [1] ⟨1, ![a]⟩ src acc h hφ hacc) hc (ix2 r u)
      = ∑ k : Fin b, src (ix2 r k) := by
  rw [Cert.LibColumns.shapeCast_a_a1_apply]
  refine (Ideal.multiReduction_add_single src acc h hφ hacc (ix1 r)).trans ?_
  show (∑ k : Fin b, src (h.lift (ix1 r) k)) = _
  exact Finset.sum_congr rfl fun k _ => congrArg src (lift_row h r k)

/-- A HOST PROGRAM'S ROW SUM laid out as a column: the reduce with `add` along axis 1 from an initial value, broadcast
    along axis 0 to `[a, 1]`, reads at `(r, v)` the initial value plus the sum over `k < b` of the entries `(r, k)`. -/
theorem hostRowSum_apply {φ : FTy} {a b : ℕ} {u : Shape} (src : FVec Ideal ⟨2, ![a, b]⟩ φ) (init : u.Idx → Ideal φ)
    (h' : (⟨2, ![a, b]⟩ : Shape).ReducesTo [1] ⟨1, ![a]⟩) (hu : 0 < u.numel)
    (h : (⟨2, ![a, b]⟩ : Shape).Reduces [1] ⟨1, ![a]⟩)
    (hb : (⟨1, ![a]⟩ : Shape).BroadcastsInDim ⟨2, ![a, 1]⟩ ![0]) (r : Fin a) (v : Fin 1) :
    broadcastInDim ⟨2, ![a, 1]⟩ ![0] hb (Host.reduceAdd (F := Ideal) src init h' hu) (ix2 r v)
      = init (Shape.Idx.first hu) + ∑ k : Fin b, src (ix2 r k) := by
  rw [broadcastInDim_a_a1_apply, hostReduceAdd_apply, Ideal.hostReduceAdd_single h' h]
  show _ + (∑ k : Fin b, src (h.lift (ix1 r) k)) = _
  exact congrArg _ (Finset.sum_congr rfl fun k _ => congrArg src (lift_row h r k))

end Cert.LibRowSums
-- ==== Proof.Region0.lean ====
/-
  The row-normalisation call: what its result array holds after its ten grid points.

  The call walks the [100000, 64] matrix in ten blocks of 10000 rows.  At a point it loads its block, divides every
  entry by the larger of its row's Euclidean length and the floor, and stores the block back at the same rows.  An
  entry of the normalised matrix reads only its own row, and a row lies inside one block, so the block the call stores
  is the band of those rows of the whole matrix's normalisation; the ten bands tile the array.  Hence the result array
  is the normalisation of the array the call was entered with, whatever that array is.
-/
import proofs.«136588_j26173530702193_2_alg».proof.Proof.Gen.KernelIdeal.Frame
import proofs.«136588_j26173530702193_2_alg».proof.Proof.Spec
import proofs.«136588_j26173530702193_2_alg».proof.Proof.LibColumns
import proofs.«136588_j26173530702193_2_alg».proof.Proof.LibRowSums
import Idealize.ShloMosaic.Lib.Pipeline.Value

set_option maxRecDepth 16384

noncomputable section

open scoped BigOperators

namespace Cert.KernelIdeal.Region0

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-- The floor under a row's length: the f32 word the program carries (about 1e-8), read as it stands. -/
abbrev eps : EReal := Ideal.ofBits .f32 0x322BCC77#32

/-- What the body stores is the row normalisation of the block it loaded: the lane sum of the squares kept as a
    column, its square root floored, spread back over the row, and the block divided by it. -/
theorem pay_eq (x0 : Vec Ideal S10000x64 .f32) : k0_pay1 (F := Ideal) x0 = Cert.Spec.rowNormalize eps x0 := by
  funext j
  obtain ⟨p, q, rfl⟩ : ∃ (p : Fin 10000) (q : Fin 64), j = ix2 p q := ⟨j 0, j 1, eq_ix2 j⟩
  rw [Cert.Spec.rowNormalize_apply]
  simp only [k0_pay1, shapeCast_self]
  show Ideal.div (x0 (ix2 p q)) (broadcastTo S10000x64 _ broadcasts_S10000x1_S10000x64 (ix2 p q)) = _
  refine congrArg (Ideal.div (x0 (ix2 p q))) ?_
  refine (Cert.LibColumns.broadcastTo_a1_ab_apply _ broadcasts_S10000x1_S10000x64 p q).trans ?_
  show max (Ideal.sqrt (shapeCast S10000x1 _ shapeCasts_S10000_S10000x1 (ix2 p (0 : Fin 1)))) eps = _
  refine congrArg (fun z => max (Ideal.sqrt z) eps) ?_
  exact Cert.LibRowSums.laneSum_apply (mulf x0 x0) 0x00000000#32 reduces_S10000x64_S10000 (.inl rfl) rfl
    shapeCasts_S10000_S10000x1 p 0

theorem hz : (![0, 0] : Fin 2 → Nat) = fun _ => 0 := funext fun a => by fin_cases a <;> rfl

/-- The two windows' index maps over the ten points: both move down the rows together, neither moves along the
    columns, and the row block index stays below ten. -/
theorem idx_facts : ∀ t : Fin cfg0.N, win0_0.index t (0 : Fin 2) = win0_1.index t (0 : Fin 2)
    ∧ win0_0.index t (1 : Fin 2) = 0 ∧ win0_1.index t (1 : Fin 2) = 0 ∧ win0_1.index t (0 : Fin 2) ≤ 9 :=
  (by decide +kernel : ∀ t : Fin grid0.N, _)

/-- Every one of the ten row blocks is some point's. -/
theorem idx_onto : ∀ q0 : Fin 10, ∃ t : Fin cfg0.N, win0_1.index t = ![q0.val, 0] :=
  (by decide +kernel : ∀ q0 : Fin 10, ∃ t : Fin grid0.N, win0_1.index t = ![q0.val, 0])

variable (V : (c : Dev nD) → (b : Ref sig .tc) → Buf (Elt Ideal) ((c : Thread nD τ).loc b))

/-- What point t writes back is block t of the normalisation of the entry array. -/
theorem flushed_eq (c : Dev nD) (t : Fin cfg0.N) :
    (dat0 V c).flushed 1 t = ((cfg0.win 1).blk t).view.read (Elt Ideal) (Cert.Spec.rowNormalize eps (V c main_v12)) := by
  show (cfg0.win 1).cut (grid0.coords t) ((dat0 V c).after 1 t) = _
  rw [after0_1]
  unfold out0_1
  rw [View.canon_unit_zero hz]
  simp only [View.ld_unit_zero (S := S10000x64) hz]
  rw [pay_eq]
  obtain ⟨e0, e1, e2, e3⟩ := idx_facts t
  funext j
  show Cert.Spec.rowNormalize (A := 10000) (B := 64) eps (iblk0 V c 0 t) j
    = Cert.Spec.rowNormalize eps (V c main_v12) (((cfg0.win 1).blk t).view.emb j)
  obtain ⟨p, q, rfl⟩ : ∃ (p : Fin 10000) (q : Fin 64), j = ix2 p q := ⟨j 0, j 1, eq_ix2 j⟩
  refine (Cert.Spec.rowNormalize_band eps (V c main_v12) (iblk0 V c 0 t)
    (fun p' => ⟨win0_1.index t (0 : Fin 2) * 10000 + p'.val, by have := p'.isLt; omega⟩) (fun p' k => ?_) p q).trans ?_
  · show V c main_v12 (((cfg0.win 0).blk t).view.emb (ix2 p' k)) = V c main_v12 (ix2 _ k)
    refine congrArg (V c main_v12) (funext fun a => Fin.ext ?_)
    match a with
    | ⟨0, _⟩ =>
      show win0_0.index t (0 : Fin 2) * 10000 + 1 * p'.val = win0_1.index t (0 : Fin 2) * 10000 + p'.val
      omega
    | ⟨1, _⟩ =>
      show win0_0.index t (1 : Fin 2) * 64 + 1 * k.val = k.val
      omega
  · refine congrArg (Cert.Spec.rowNormalize eps (V c main_v12)) (funext fun a => Fin.ext ?_)
    match a with
    | ⟨0, _⟩ =>
      show win0_1.index t (0 : Fin 2) * 10000 + p.val = win0_1.index t (0 : Fin 2) * 10000 + 1 * p.val
      omega
    | ⟨1, _⟩ =>
      show q.val = win0_1.index t (1 : Fin 2) * 64 + 1 * q.val
      omega

/-- An index of the array is in point t's block iff each coordinate is in the block's range on its axis. -/
theorem mem_blk (t : Fin cfg0.N) (i : S100000x64.Idx) :
    i ∈ ((cfg0.win 1).blk t).view.set ↔ ∀ a : Fin 2, win0_1.index t a * S10000x64.size a ≤ (i a).val
      ∧ (i a).val < win0_1.index t a * S10000x64.size a + S10000x64.size a := by
  show i ∈ ((View.whole main_v13).slice (win0_1.rect t)).set ↔ _
  rw [View.set_slice_whole, Rect.mem_set_unit]
  exact Iff.rfl

/-- Every entry of the array lies in the block of the point that owns its row. -/
theorem cover (i : S100000x64.Idx) :
    ∃ t : Fin cfg0.N, (cfg0.win 1).flush t = true ∧ i ∈ ((cfg0.win 1).blk t).view.set := by
  have hi0 : (i 0).val < 100000 := (i 0).isLt
  have hi1 : (i 1).val < 64 := (i 1).isLt
  obtain ⟨t, ht⟩ := idx_onto ⟨(i 0).val / 10000, by omega⟩
  have q0 : win0_1.index t (0 : Fin 2) = (i 0).val / 10000 := congrFun ht 0
  have q1 : win0_1.index t (1 : Fin 2) = 0 := congrFun ht 1
  refine ⟨t, flush0_1 t, ?_⟩
  rw [mem_blk]
  intro a
  match a with
  | ⟨0, _⟩ =>
    show win0_1.index t (0 : Fin 2) * 10000 ≤ (i 0).val ∧ (i 0).val < win0_1.index t (0 : Fin 2) * 10000 + 10000
    omega
  | ⟨1, _⟩ =>
    show win0_1.index t (1 : Fin 2) * 64 ≤ (i 1).val ∧ (i 1).val < win0_1.index t (1 : Fin 2) * 64 + 64
    omega

/-- After the call's last point its result array is the row normalisation of the array it was entered with. -/
theorem final (c : Dev nD) : (dat0 V c).arrAt 1 cfg0.N = Cert.Spec.rowNormalize eps (V c main_v12) :=
  (dat0 V c).arrAt_eq_of_cover 1 (Cert.Spec.rowNormalize eps (V c main_v12)) (fun t _ => flushed_eq V c t) cover

end Cert.KernelIdeal.Region0

end
-- ==== Proof.LibMatmul.lean ====
/-
  A matrix product read at one entry, over the extended reals.

  A product of an [A, K] matrix by a [K, B] matrix whose dimension numbers contract the left operand's second axis
  with the right operand's first, accumulated into the zero matrix, has at entry (r, j) the value
  Σ_k lhs[r, k] · rhs[k, j]: exact arithmetic leaves neither rounding nor a chunk order in it.
-/
import Idealize.ShloMosaic.PureOps.Ideal.Laws
import Idealize.ShloMosaic.Lib.ValueIdx

noncomputable section

namespace Cert.LibMatmul

open Idealize.ShloMosaic Idealize.ShloMosaic.ValueIdx

/-- Entry (r, j) of a plain matrix product into a zero accumulator is the sum over the contracted axis. -/
theorem plain_matmul_zero_apply {A K B : Nat} {φ₁ φ₂ : FTy} (prec : Option ContractPrecision)
    (lhs : FVec Ideal ⟨2, ![A, K]⟩ φ₁) (rhs : FVec Ideal ⟨2, ![K, B]⟩ φ₂) (r : Fin A) (j : Fin B) :
    FloatOps.matmul (DotDims.plain A K B) prec lhs rhs (constant (F := Ideal) ⟨2, ![A, B]⟩ .f32 0x00000000#32) (ix2 r j)
      = ∑ k : Fin K, lhs (ix2 r k) * rhs (ix2 k j) := by
  rw [Ideal.matmul_constant_zero_apply, ← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx (ix2 r j) ((contrEquiv1 (DotDims.plain A K B) K rfl rfl).symm k) = ix2 r k :=
    funext fun a => Fin.ext (by
      match a with
      | ⟨0, _⟩ => rfl
      | ⟨1, _⟩ => exact ((DotDims.plain A K B).lhsIdx_val_of_single rfl (ix2 r j) _).trans hk)
  have er : (DotDims.plain A K B).rhsIdx (ix2 r j) ((contrEquiv1 (DotDims.plain A K B) K rfl rfl).symm k) = ix2 k j :=
    funext fun a => Fin.ext (by
      match a with
      | ⟨0, _⟩ => exact ((DotDims.plain A K B).rhsIdx_val_of_single rfl (ix2 r j) _).trans hk
      | ⟨1, _⟩ => rfl)
  rw [el, er]

end Cert.LibMatmul

end
-- ==== Proof.LibTransposedProduct.lean ====
/-
  A matrix product against a transposed matrix, read at one entry, over the extended reals.

  Swapping the two axes of a [b, a] matrix gives the [a, b] matrix whose entry (i, j) is the original's (j, i).  A
  product of an [A, K] matrix x by the transpose of a [B, K] matrix w, accumulated into zero, therefore has at entry
  (r, j) the value Σ_k x[r, k] · w[j, k]: row r of x against row j of w.  The operands may carry any float formats; over
  the extended reals a format is only a label.  General in the extents.
-/
import Idealize.ShloMosaic.Lib.Pipeline.Value
import proofs.«136588_j26173530702193_2_alg».proof.Proof.LibMatmul

noncomputable section

open scoped BigOperators

namespace Cert.LibTransposedProduct

open Idealize.ShloMosaic Idealize.ShloMosaic.ValueIdx

/-- The transpose of a [b, a] matrix reads, at (i, j), the matrix at (j, i). -/
theorem transpose_swap_apply {α : Type} {a b : ℕ} (x : (⟨2, ![b, a]⟩ : Shape).Idx → α)
    (h : (⟨2, ![b, a]⟩ : Shape).Transposes [1, 0] ⟨2, ![a, b]⟩) (i : Fin a) (j : Fin b) :
    transpose ⟨2, ![a, b]⟩ [1, 0] x h (ix2 i j) = x (ix2 j i) :=
  transpose_apply [1, 0] x h (ix2 i j) (ix2 j i) fun c => by
    match c with
    | ⟨0, _⟩ => rfl
    | ⟨1, _⟩ => rfl

/-- Entry (r, j) of x times the transpose of w, accumulated into zero, is row r of x against row j of w. -/
theorem matmul_transposed_apply {A K B : ℕ} {φ₁ φ₂ : FTy} (prec : Option ContractPrecision)
    (x : FVec Ideal ⟨2, ![A, K]⟩ φ₁) (w : FVec Ideal ⟨2, ![B, K]⟩ φ₂)
    (h : (⟨2, ![B, K]⟩ : Shape).Transposes [1, 0] ⟨2, ![K, B]⟩) (r : Fin A) (j : Fin B) :
    FloatOps.matmul (DotDims.plain A K B) prec x (transpose ⟨2, ![K, B]⟩ [1, 0] w h)
        (constant (F := Ideal) ⟨2, ![A, B]⟩ .f32 0x00000000#32) (ix2 r j)
      = ∑ k : Fin K, x (ix2 r k) * w (ix2 j k) := by
  rw [Cert.LibMatmul.plain_matmul_zero_apply]
  exact Finset.sum_congr rfl fun k _ => by rw [transpose_swap_apply]

end Cert.LibTransposedProduct

end
-- ==== Proof.Region1.lean ====
/-
  The gating call: what its result array holds after its twenty grid points.

  The call walks the two [100000, 64] matrices a and s in twenty blocks of 5000 rows, each time with the whole of the
  two [64, 64] weight matrices.  At a point it narrows the blocks and the weights to sixteen-bit floats (no change over
  the extended reals), multiplies each block by the transposed weights into a zero accumulator, adds the two products,
  takes the logistic function and blends: g · s + (1 - g) · a.  Entry (p, j) of a product against a transposed matrix
  is row p of the block against row j of the weights, so the stored block is the blend of the blocks; an entry of the
  blend reads only its own row of a and of s, so that is the band of those rows of the whole arrays' blend; the twenty
  bands tile the result.  Hence the result array is the blend of the four arrays the call was entered with.
-/
import proofs.«136588_j26173530702193_2_alg».proof.Proof.Gen.KernelIdeal.Frame
import proofs.«136588_j26173530702193_2_alg».proof.Proof.Spec
import proofs.«136588_j26173530702193_2_alg».proof.Proof.LibTransposedProduct
import Idealize.ShloMosaic.Lib.Pipeline.Value
import Idealize.ShloMosaic.Lib.IdealHost

set_option maxRecDepth 16384

noncomputable section

open scoped BigOperators

namespace Cert.KernelIdeal.Region1

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-- What the body stores is the gated blend of the blocks it loaded with the weights it loaded. -/
theorem pay_eq (v0 v2 : Vec Ideal S5000x64 .f32) (v4 v6 : Vec Ideal S64x64 .f32) :
    k1_pay1 (F := Ideal) v0 v2 v4 v6 = Cert.Spec.gate v0 v2 v4 v6 := by
  funext j
  obtain ⟨p, q, rfl⟩ : ∃ (p : Fin 5000) (q : Fin 64), j = ix2 p q := ⟨j 0, j 1, eq_ix2 j⟩
  rw [Cert.Spec.gate_apply]
  simp only [k1_pay1, shapeCast_self]
  have m1 := Cert.LibTransposedProduct.matmul_transposed_apply (A := 5000) (K := 64) (B := 64) none
    (truncf .bf16 v0 bitsLt_bf16_f32) (truncf .bf16 v4 bitsLt_bf16_f32) transposes_S64x64_p1_0_S64x64 p q
  have m2 := Cert.LibTransposedProduct.matmul_transposed_apply (A := 5000) (K := 64) (B := 64) none
    (truncf .bf16 v2 bitsLt_bf16_f32) (truncf .bf16 v6 bitsLt_bf16_f32) transposes_S64x64_p1_0_S64x64 p q
  show Ideal.logistic (FloatOps.matmul (F := Ideal) _ none (truncf .bf16 v0 bitsLt_bf16_f32) _ _ (ix2 p q)
        + FloatOps.matmul (F := Ideal) _ none (truncf .bf16 v2 bitsLt_bf16_f32) _ _ (ix2 p q)) * v2 (ix2 p q)
      + (Ideal.ofBits .f32 0x3F800000#32 - Ideal.logistic (FloatOps.matmul (F := Ideal) _ none (truncf .bf16 v0 bitsLt_bf16_f32) _ _ (ix2 p q)
        + FloatOps.matmul (F := Ideal) _ none (truncf .bf16 v2 bitsLt_bf16_f32) _ _ (ix2 p q))) * v0 (ix2 p q) = _
  exact congrArg₂ (fun z o => Ideal.logistic z * v2 (ix2 p q) + (o - Ideal.logistic z) * v0 (ix2 p q))
    (congrArg₂ (· + ·) m1 m2) Ideal.ofBits_one_f32

theorem hz : (![0, 0] : Fin 2 → Nat) = fun _ => 0 := funext fun a => by fin_cases a <;> rfl

/-- The five windows' index maps over the twenty points: the two row-blocked inputs move down the rows with the
    output, the weights stay at their one block, nothing moves along the columns, and the row block index stays below
    twenty. -/
theorem idx_facts : ∀ t : Fin cfg1.N, win1_0.index t (0 : Fin 2) = win1_4.index t (0 : Fin 2)
    ∧ win1_0.index t (1 : Fin 2) = 0
    ∧ win1_1.index t (0 : Fin 2) = win1_4.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (1 : Fin 2) = 0 ∧ win1_4.index t (0 : Fin 2) ≤ 19 :=
  (by decide +kernel : ∀ t : Fin grid1.N, _)

/-- Every one of the twenty row blocks is some point's. -/
theorem idx_onto : ∀ q0 : Fin 20, ∃ t : Fin cfg1.N, win1_4.index t = ![q0.val, 0] :=
  (by decide +kernel : ∀ q0 : Fin 20, ∃ t : Fin grid1.N, win1_4.index t = ![q0.val, 0])

variable (V : (c : Dev nD) → (b : Ref sig .tc) → Buf (Elt Ideal) ((c : Thread nD τ).loc b))

/-- What point t writes back is block t of the blend of the entry arrays. -/
theorem flushed_eq (c : Dev nD) (t : Fin cfg1.N) :
    (dat1 V c).flushed 4 t = ((cfg1.win 4).blk t).view.read (Elt Ideal)
      (Cert.Spec.gate (V c main_v134) (V c main_v101) (V c main_arg2) (V c main_arg3)) := by
  show (cfg1.win 4).cut (grid1.coords t) ((dat1 V c).after 4 t) = _
  rw [after1_4]
  unfold out1_4
  rw [View.canon_unit_zero hz]
  simp only [View.ld_unit_zero (S := S5000x64) hz, View.ld_unit_zero (S := S64x64) hz]
  rw [pay_eq]
  obtain ⟨e0, e1, e2, e3, e4, e5, e6, e7, e8, e9⟩ := idx_facts t
  funext j
  show Cert.Spec.gate (A := 5000) (D := 64) (iblk1 V c 0 t) (iblk1 V c 1 t) (iblk1 V c 2 t) (iblk1 V c 3 t) j
    = Cert.Spec.gate (V c main_v134) (V c main_v101) (V c main_arg2) (V c main_arg3) (((cfg1.win 4).blk t).view.emb j)
  obtain ⟨p, q, rfl⟩ : ∃ (p : Fin 5000) (q : Fin 64), j = ix2 p q := ⟨j 0, j 1, eq_ix2 j⟩
  refine (Cert.Spec.gate_band (V c main_v134) (V c main_v101) (iblk1 V c 0 t) (iblk1 V c 1 t)
    (V c main_arg2) (V c main_arg3) (iblk1 V c 2 t) (iblk1 V c 3 t)
    (fun p' => ⟨win1_4.index t (0 : Fin 2) * 5000 + p'.val, by have := p'.isLt; omega⟩)
    (fun p' k => ?_) (fun p' k => ?_) (fun j' k => ?_) (fun j' k => ?_) p q).trans ?_
  · show V c main_v134 (((cfg1.win 0).blk t).view.emb (ix2 p' k)) = V c main_v134 (ix2 _ k)
    refine congrArg (V c main_v134) (funext fun a => Fin.ext ?_)
    match a with
    | ⟨0, _⟩ =>
      show win1_0.index t (0 : Fin 2) * 5000 + 1 * p'.val = win1_4.index t (0 : Fin 2) * 5000 + p'.val
      omega
    | ⟨1, _⟩ =>
      show win1_0.index t (1 : Fin 2) * 64 + 1 * k.val = k.val
      omega
  · show V c main_v101 (((cfg1.win 1).blk t).view.emb (ix2 p' k)) = V c main_v101 (ix2 _ k)
    refine congrArg (V c main_v101) (funext fun a => Fin.ext ?_)
    match a with
    | ⟨0, _⟩ =>
      show win1_1.index t (0 : Fin 2) * 5000 + 1 * p'.val = win1_4.index t (0 : Fin 2) * 5000 + p'.val
      omega
    | ⟨1, _⟩ =>
      show win1_1.index t (1 : Fin 2) * 64 + 1 * k.val = k.val
      omega
  · show V c main_arg2 (((cfg1.win 2).blk t).view.emb (ix2 j' k)) = V c main_arg2 (ix2 j' k)
    refine congrArg (V c main_arg2) (funext fun a => Fin.ext ?_)
    match a with
    | ⟨0, _⟩ =>
      show win1_2.index t (0 : Fin 2) * 64 + 1 * j'.val = j'.val
      omega
    | ⟨1, _⟩ =>
      show win1_2.index t (1 : Fin 2) * 64 + 1 * k.val = k.val
      omega
  · show V c main_arg3 (((cfg1.win 3).blk t).view.emb (ix2 j' k)) = V c main_arg3 (ix2 j' k)
    refine congrArg (V c main_arg3) (funext fun a => Fin.ext ?_)
    match a with
    | ⟨0, _⟩ =>
      show win1_3.index t (0 : Fin 2) * 64 + 1 * j'.val = j'.val
      omega
    | ⟨1, _⟩ =>
      show win1_3.index t (1 : Fin 2) * 64 + 1 * k.val = k.val
      omega
  · refine congrArg (Cert.Spec.gate (V c main_v134) (V c main_v101) (V c main_arg2) (V c main_arg3)) (funext fun a => Fin.ext ?_)
    match a with
    | ⟨0, _⟩ =>
      show win1_4.index t (0 : Fin 2) * 5000 + p.val = win1_4.index t (0 : Fin 2) * 5000 + 1 * p.val
      omega
    | ⟨1, _⟩ =>
      show q.val = win1_4.index t (1 : Fin 2) * 64 + 1 * q.val
      omega

/-- An index of the array is in point t's block iff each coordinate is in the block's range on its axis. -/
theorem mem_blk (t : Fin cfg1.N) (i : S100000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v136).slice (win1_4.rect t)).set ↔ _
  rw [View.set_slice_whole, Rect.mem_set_unit]
  exact Iff.rfl

/-- Every entry of the array lies in the block of the point that owns its row. -/
theorem cover (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  obtain ⟨t, ht⟩ := idx_onto ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 64 ≤ (i 1).val ∧ (i 1).val < win1_4.index t (1 : Fin 2) * 64 + 64
    omega

/-- After the call's last point its result array is the gated blend of the four arrays it was entered with. -/
theorem final (c : Dev nD) :
    (dat1 V c).arrAt 4 cfg1.N = Cert.Spec.gate (V c main_v134) (V c main_v101) (V c main_arg2) (V c main_arg3) :=
  (dat1 V c).arrAt_eq_of_cover 4 (Cert.Spec.gate (V c main_v134) (V c main_v101) (V c main_arg2) (V c main_arg3))
    (fun t _ => flushed_eq V c t) cover

end Cert.KernelIdeal.Region1

end
-- ==== Proof.KernelHead.lean ====
/-
  The kernel program's first stretch of host operations, read from any contents.

  Before the row-normalisation call the program gathers the rows of the user matrix named by the social edges' column
  indices, scales each by its edge's weight, and scatter-adds them into a zero matrix at the edges' row indices: one
  sparse matrix product.  These are the reference's first operations, one for one, so whatever the buffers hold
  beforehand the matrix the call is entered with is the reference's stage of the same name applied to the four
  arguments that stretch reads; and the stretch writes none of the ten arguments.
-/
import proofs.«136588_j26173530702193_2_alg».proof.Proof.Gen.KernelIdeal.Launch
import proofs.«136588_j26173530702193_2_alg».proof.Proof.RefReadP
import Idealize.ShloMosaic.Lib.StableHlo.Run

set_option maxRecDepth 16384

noncomputable section

namespace Cert.KernelIdeal.HostChain

open Cert.KernelIdeal Cert.KernelIdeal.Gen
open Idealize.ShloMosaic Idealize.ShloMosaic.StableHlo

/-- The ten argument buffers. -/
abbrev argRefs : List (Ref sig .tc) :=
  [main_arg0, main_arg1, main_arg2, main_arg3, main_arg4, main_arg5, main_arg6, main_arg7, main_arg8, main_arg9]

variable (V : Valuation τ sig (Elt Ideal))

set_option maxHeartbeats 20000000 in
/-- The scattered sum the first call is entered with is the reference's, of the same four arguments. -/
theorem head_v12 :
    StableHlo.after (hostOps0 (F := Ideal)) V (Proc.devRef .tc main_v12)
      = Cert.ReferenceIdeal.ReadP.val_main_v12 (F := Ideal) (V (Proc.devRef .tc main_arg0)) (V (Proc.devRef .tc main_arg4))
          (V (Proc.devRef .tc main_arg5)) (V (Proc.devRef .tc main_arg6)) := by
  dsimp only [hostOps0]
  after_results_simp
  rfl

set_option maxHeartbeats 20000000 in
/-- The first stretch writes no argument: each is left as found. -/
theorem head_keeps (r : Ref sig .tc) (hr : r ∈ argRefs) :
    StableHlo.after (hostOps0 (F := Ideal)) V (Proc.devRef .tc r) = V (Proc.devRef .tc r) := by
  simp only [argRefs, List.mem_cons, List.not_mem_nil, or_false] at hr
  rcases hr with rfl | rfl | rfl | rfl | rfl | rfl | rfl | rfl | rfl | rfl <;>
    (dsimp only [hostOps0]; after_results_simp)

end Cert.KernelIdeal.HostChain

end
-- ==== Proof.KernelMid.lean ====
/-
  The kernel program's host operations between its two calls, first part: from the normalised matrix to the pruned
  edge weights.

  After the row-normalisation call the program gathers the normalised rows at both ends of every social edge, takes
  their inner product, maps it to (sim + 1) / 2, compares the mean with 0.7 to choose a threshold, and zeroes the
  weights below it.  These are the reference's operations, one for one; the only thing that differs upstream is how the
  normalised matrix was made.  So from any contents in which that matrix is the reference's, the pruned weights are the
  reference's, and no argument is written.  (The two selections are spelt as small functions called in line; a value passed into
  one is the same value at the same type, so the transports along "this buffer's type is that type" are identities and
  are removed before the two sides are compared.)
-/
import proofs.«136588_j26173530702193_2_alg».proof.Proof.KernelHead

set_option maxRecDepth 16384

noncomputable section

namespace Cert.KernelIdeal.HostChain

open Cert.KernelIdeal Cert.KernelIdeal.Gen
open Idealize.ShloMosaic Idealize.ShloMosaic.StableHlo

variable (V : Valuation τ sig (Elt Ideal))

/-- The four short stretches after the first call, in order. -/
abbrev mid (V : Valuation τ sig (Elt Ideal)) : Valuation τ sig (Elt Ideal) :=
  StableHlo.after (hostOps1_3 (F := Ideal)) (StableHlo.after (hostOps1_2 (F := Ideal))
    (StableHlo.after (hostOps1_1 (F := Ideal)) (StableHlo.after (hostOps1 (F := Ideal)) V)))

set_option maxHeartbeats 100000000 in
/-- From contents whose normalised matrix is the reference's, the pruned edge weights are the reference's. -/
theorem mid_v41
    (h13 : V (Proc.devRef .tc main_v13) = Cert.ReferenceIdeal.ReadP.val_main_v17 (F := Ideal) (V (Proc.devRef .tc main_arg0)) (V (Proc.devRef .tc main_arg4)) (V (Proc.devRef .tc main_arg5)) (V (Proc.devRef .tc main_arg6))) :
    mid V (Proc.devRef .tc main_v41)
      = Cert.ReferenceIdeal.ReadP.val_main_v45 (F := Ideal) (V (Proc.devRef .tc main_arg0)) (V (Proc.devRef .tc main_arg4)) (V (Proc.devRef .tc main_arg5)) (V (Proc.devRef .tc main_arg6)) := by
  dsimp only [mid, hostOps1, hostOps1_1, hostOps1_2, hostOps1_3]
  after_results_simp
  try simp only [TRef.toBuf, TRef.ofBuf]
  repeat rw [cast_eq]
  simp only [h13]
  rfl

set_option maxHeartbeats 100000000 in
/-- These stretches write no argument. -/
theorem mid_keeps (r : Ref sig .tc) (hr : r ∈ argRefs) : mid V (Proc.devRef .tc r) = V (Proc.devRef .tc r) := by
  simp only [argRefs, List.mem_cons, List.not_mem_nil, or_false] at hr
  rcases hr with rfl | rfl | rfl | rfl | rfl | rfl | rfl | rfl | rfl | rfl <;>
    (dsimp only [mid, hostOps1, hostOps1_1, hostOps1_2, hostOps1_3]; after_results_simp)

end Cert.KernelIdeal.HostChain

end
-- ==== Proof.LibHostRead.lean ====
/-
  Reading a buffer after a line of host operations.

  `StableHlo.after ops V b` is what buffer b holds once the operations have run in order from contents V: the last
  operation that writes b applied to what its operands held then, and so on back to V.  The tactic below computes
  that term for a literal list of operations.  It first runs the library's one-pass simplification; a read that ends
  up inside the operand list of a concatenate is not reached by it, so the library's rewriting loop goes on from
  there; operations of an inlined call carry their values through casts along an equation between a buffer's type and
  itself, which are then removed.  What is left is an equation between terms of the pure operations.
-/
import Idealize.ShloMosaic.Lib.StableHlo.Run

namespace Cert.HostRead

open Idealize.ShloMosaic Idealize.ShloMosaic.StableHlo

/-- Running one line of operations after another is running their concatenation. -/
theorem after_append {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih (op.result V)

/-- Computes `StableHlo.after ops V b` for a literal list `ops` down to the pure operations over `V`. -/
macro "read_after" : tactic =>
  `(tactic| (after_results_simp
             repeat (first
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))
             try simp only [TRef.toBuf, TRef.ofBuf]
             repeat rw [cast_eq]))

end Cert.HostRead
-- ==== Proof.LibHostCut.lean ====
/-
  Cutting a line of host operations in two.

  Running a list of operations from some contents is running its first k operations and then the rest from what those
  left.  Reading a late buffer can then be done in two steps: the buffers the rest reads are named once, as what the
  first part leaves, and the rest is read over them as if they were inputs.
-/
import proofs.«136588_j26173530702193_2_alg».proof.Proof.LibHostRead

namespace Cert.HostCut

open Idealize.ShloMosaic Idealize.ShloMosaic.StableHlo

/-- The contents after a list of operations are the contents after its tail from position k, started from the contents
    after its first k operations. -/
theorem after_cut {τ : Topo} {sig : RefSig} {Val : EltTy → Type} (k : ℕ) (l : List (HloOp τ sig Val)) (V : Valuation τ sig Val) :
    StableHlo.after l V = StableHlo.after (l.drop k) (StableHlo.after (l.take k) V) := by
  rw [← Cert.HostRead.after_append, List.take_append_drop]

end Cert.HostCut
-- ==== Proof.KernelTail.lean ====
/-
  The kernel program's host operations between its two calls, last part: from the pruned edge weights to the inputs
  of the gating call.

  The program normalises the pruned weights by their row sums, runs three rounds of the social sparse product and
  averages them into the social view, adds it to the user matrix, appends the item matrix, runs two rounds of the joint
  sparse product, averages, and cuts the result back into its user rows and its item rows.  These are the reference's
  operations, one for one.  The stretch is read in two steps, cut where the item matrix is appended: up to there only
  the pruned weights and four arguments are read, and from there on only the user matrix with the social view added,
  the social view itself and four more arguments.  So from any contents whose pruned weights are the reference's, the
  social view, the propagated user rows and the propagated item rows are the reference's stages of the arguments, and
  no argument is written.
-/
import proofs.«136588_j26173530702193_2_alg».proof.Proof.KernelHead
import proofs.«136588_j26173530702193_2_alg».proof.Proof.LibHostCut

set_option maxRecDepth 16384

noncomputable section

namespace Cert.KernelIdeal.HostChain

open Cert.KernelIdeal Cert.KernelIdeal.Gen
open Idealize.ShloMosaic Idealize.ShloMosaic.StableHlo

/-- The last stretch up to where the item matrix is appended: 77 operations. -/
abbrev tailA : List (HloOp τ sig (Elt Ideal)) := (hostOps1_4 (F := Ideal)).take 77
/-- The last stretch from there on: 40 operations. -/
abbrev tailB : List (HloOp τ sig (Elt Ideal)) := (hostOps1_4 (F := Ideal)).drop 77

section First
variable (V : Valuation τ sig (Elt Ideal))
  (h41 : V (Proc.devRef .tc main_v41) = Cert.ReferenceIdeal.ReadP.val_main_v45 (F := Ideal) (V (Proc.devRef .tc main_arg0)) (V (Proc.devRef .tc main_arg4)) (V (Proc.devRef .tc main_arg5)) (V (Proc.devRef .tc main_arg6)))

include h41

set_option maxHeartbeats 200000000 in
/-- The social view is the reference's. -/
theorem tailA_v101 :
    StableHlo.after tailA V (Proc.devRef .tc main_v101) = Cert.ReferenceIdeal.ReadP.val_main_v105 (F := Ideal) (V (Proc.devRef .tc main_arg0)) (V (Proc.devRef .tc main_arg4)) (V (Proc.devRef .tc main_arg5)) (V (Proc.devRef .tc main_arg6)) := by
  dsimp only [tailA, hostOps1_4, List.take]
  after_results_simp
  simp only [h41]
  rfl

set_option maxHeartbeats 200000000 in
/-- The user matrix with the social view added is the reference's. -/
theorem tailA_v102 :
    StableHlo.after tailA V (Proc.devRef .tc main_v102) = Cert.ReferenceIdeal.ReadP.val_main_v106 (F := Ideal) (V (Proc.devRef .tc main_arg0)) (V (Proc.devRef .tc main_arg4)) (V (Proc.devRef .tc main_arg5)) (V (Proc.devRef .tc main_arg6)) := by
  dsimp only [tailA, hostOps1_4, List.take]
  after_results_simp
  simp only [h41]
  rfl

omit h41 in
set_option maxHeartbeats 100000000 in
/-- The first part writes no argument. -/
theorem tailA_keeps (r : Ref sig .tc) (hr : r ∈ argRefs) :
    StableHlo.after tailA V (Proc.devRef .tc r) = V (Proc.devRef .tc r) := by
  simp only [argRefs, List.mem_cons, List.not_mem_nil, or_false] at hr
  rcases hr with rfl | rfl | rfl | rfl | rfl | rfl | rfl | rfl | rfl | rfl <;>
    (dsimp only [tailA, hostOps1_4, List.take]; after_results_simp)

end First

section Second
variable (W : Valuation τ sig (Elt Ideal))
  (x0 : (⟨Cert.ReferenceIdeal.S100000x64, .f32⟩ : BufTy).Contents (Elt Ideal))
  (x1 : (⟨Cert.ReferenceIdeal.S200000x64, .f32⟩ : BufTy).Contents (Elt Ideal))
  (x4 x5 : (⟨Cert.ReferenceIdeal.S1600000, .i32⟩ : BufTy).Contents (Elt Ideal))
  (x6 : (⟨Cert.ReferenceIdeal.S1600000, .f32⟩ : BufTy).Contents (Elt Ideal))
  (x7 x8 : (⟨Cert.ReferenceIdeal.S2000000, .i32⟩ : BufTy).Contents (Elt Ideal))
  (x9 : (⟨Cert.ReferenceIdeal.S2000000, .f32⟩ : BufTy).Contents (Elt Ideal))
  (h102 : W (Proc.devRef .tc main_v102) = Cert.ReferenceIdeal.ReadP.val_main_v106 (F := Ideal) x0 x4 x5 x6)
  (h1 : W (Proc.devRef .tc main_arg1) = x1) (h7 : W (Proc.devRef .tc main_arg7) = x7)
  (h8 : W (Proc.devRef .tc main_arg8) = x8) (h9 : W (Proc.devRef .tc main_arg9) = x9)

include h102 h1 h7 h8 h9

set_option maxHeartbeats 200000000 in
/-- From contents holding the reference's summed user matrix, the propagated user rows are the reference's. -/
theorem tailB_v134 :
    StableHlo.after tailB W (Proc.devRef .tc main_v134) = Cert.ReferenceIdeal.ReadP.val_main_v138 (F := Ideal) x0 x1 x4 x5 x6 x7 x8 x9 := by
  dsimp only [tailB, hostOps1_4, List.drop]
  after_results_simp
  rw [h102, h1]
  simp only [h7, h8, h9]
  rfl

set_option maxHeartbeats 200000000 in
/-- From the same contents, the propagated item rows are the reference's. -/
theorem tailB_v135 :
    StableHlo.after tailB W (Proc.devRef .tc main_v135) = Cert.ReferenceIdeal.ReadP.val_main_v139 (F := Ideal) x0 x1 x4 x5 x6 x7 x8 x9 := by
  dsimp only [tailB, hostOps1_4, List.drop]
  after_results_simp
  rw [h102, h1]
  simp only [h7, h8, h9]
  rfl

omit h102 h1 h7 h8 h9 in
set_option maxHeartbeats 100000000 in
/-- The second part leaves the social view where it is. -/
theorem tailB_v101 : StableHlo.after tailB W (Proc.devRef .tc main_v101) = W (Proc.devRef .tc main_v101) := by
  dsimp only [tailB, hostOps1_4, List.drop]
  after_results_simp

omit h102 h1 h7 h8 h9 in
set_option maxHeartbeats 100000000 in
/-- The second part writes no argument. -/
theorem tailB_keeps (r : Ref sig .tc) (hr : r ∈ argRefs) :
    StableHlo.after tailB W (Proc.devRef .tc r) = W (Proc.devRef .tc r) := by
  simp only [argRefs, List.mem_cons, List.not_mem_nil, or_false] at hr
  rcases hr with rfl | rfl | rfl | rfl | rfl | rfl | rfl | rfl | rfl | rfl <;>
    (dsimp only [tailB, hostOps1_4, List.drop]; after_results_simp)

end Second

section Whole
variable (V : Valuation τ sig (Elt Ideal))
  (h41 : V (Proc.devRef .tc main_v41) = Cert.ReferenceIdeal.ReadP.val_main_v45 (F := Ideal) (V (Proc.devRef .tc main_arg0)) (V (Proc.devRef .tc main_arg4)) (V (Proc.devRef .tc main_arg5)) (V (Proc.devRef .tc main_arg6)))

include h41

/-- The social view the gating call reads is the reference's. -/
theorem tail_v101 :
    StableHlo.after (hostOps1_4 (F := Ideal)) V (Proc.devRef .tc main_v101) = Cert.ReferenceIdeal.ReadP.val_main_v105 (F := Ideal) (V (Proc.devRef .tc main_arg0)) (V (Proc.devRef .tc main_arg4)) (V (Proc.devRef .tc main_arg5)) (V (Proc.devRef .tc main_arg6)) := by
  rw [Cert.HostCut.after_cut 77]
  exact (tailB_v101 (StableHlo.after tailA V)).trans (tailA_v101 V h41)

/-- The propagated user rows the gating call reads are the reference's. -/
theorem tail_v134 :
    StableHlo.after (hostOps1_4 (F := Ideal)) V (Proc.devRef .tc main_v134) = Cert.ReferenceIdeal.ReadP.val_main_v138 (F := Ideal) (V (Proc.devRef .tc main_arg0)) (V (Proc.devRef .tc main_arg1)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  rw [Cert.HostCut.after_cut 77]
  exact tailB_v134 (StableHlo.after tailA V) _ _ _ _ _ _ _ _ (tailA_v102 V h41)
    (tailA_keeps V main_arg1 (by decide)) (tailA_keeps V main_arg7 (by decide))
    (tailA_keeps V main_arg8 (by decide)) (tailA_keeps V main_arg9 (by decide))

/-- The propagated item rows, the program's second result, are the reference's. -/
theorem tail_v135 :
    StableHlo.after (hostOps1_4 (F := Ideal)) V (Proc.devRef .tc main_v135) = Cert.ReferenceIdeal.ReadP.val_main_v139 (F := Ideal) (V (Proc.devRef .tc main_arg0)) (V (Proc.devRef .tc main_arg1)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  rw [Cert.HostCut.after_cut 77]
  exact tailB_v135 (StableHlo.after tailA V) _ _ _ _ _ _ _ _ (tailA_v102 V h41)
    (tailA_keeps V main_arg1 (by decide)) (tailA_keeps V main_arg7 (by decide))
    (tailA_keeps V main_arg8 (by decide)) (tailA_keeps V main_arg9 (by decide))

omit h41 in
/-- The last stretch writes no argument. -/
theorem tail_keeps (r : Ref sig .tc) (hr : r ∈ argRefs) :
    StableHlo.after (hostOps1_4 (F := Ideal)) V (Proc.devRef .tc r) = V (Proc.devRef .tc r) := by
  rw [Cert.HostCut.after_cut 77]
  exact (tailB_keeps (StableHlo.after tailA V) r hr).trans (tailA_keeps V r hr)

end Whole

end Cert.KernelIdeal.HostChain

end
-- ==== Proof.LibHostDot.lean ====
/-
  The host's matrix product read at one entry, over the extended reals.

  A `dot_general` of an [A, K] matrix by a [K, B] matrix that contracts the left operand's second axis with the
  right operand's first has at entry (r, j) the value Σ_k lhs[r, k] · rhs[k, j]: over the extended reals the host's
  product is the exact sum, whatever order a schedule would add it in.  The same statement for a product accumulated
  into the zero matrix is `Cert.LibMatmul.plain_matmul_zero_apply`; the two sums are term for term the same.
-/
import Idealize.ShloMosaic.PureOps.Ideal.Laws
import Idealize.ShloMosaic.Lib.ValueIdx

noncomputable section

namespace Cert.LibHostDot

open Idealize.ShloMosaic Idealize.ShloMosaic.ValueIdx

/-- Entry (r, j) of the host's plain matrix product is the sum over the contracted axis. -/
theorem plain_dotGeneral_apply {A K B : Nat} {φ₁ φ₂ : FTy} (prec : Option ContractPrecision) (sched : HostSchedule)
    (lhs : FVec Ideal ⟨2, ![A, K]⟩ φ₁) (rhs : FVec Ideal ⟨2, ![K, B]⟩ φ₂) (r : Fin A) (j : Fin B) :
    FloatOps.dotGeneral (DotDims.plain A K B) prec sched lhs rhs (ix2 r j)
      = ∑ k : Fin K, lhs (ix2 r k) * rhs (ix2 k j) := by
  rw [Ideal.dotGeneral_apply, ← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx (ix2 r j) ((contrEquiv1 (DotDims.plain A K B) K rfl rfl).symm k) = ix2 r k :=
    funext fun a => Fin.ext (by
      match a with
      | ⟨0, _⟩ => rfl
      | ⟨1, _⟩ => exact ((DotDims.plain A K B).lhsIdx_val_of_single rfl (ix2 r j) _).trans hk)
  have er : (DotDims.plain A K B).rhsIdx (ix2 r j) ((contrEquiv1 (DotDims.plain A K B) K rfl rfl).symm k) = ix2 k j :=
    funext fun a => Fin.ext (by
      match a with
      | ⟨0, _⟩ => exact ((DotDims.plain A K B).rhsIdx_val_of_single rfl (ix2 r j) _).trans hk
      | ⟨1, _⟩ => rfl)
  rw [el, er]

end Cert.LibHostDot

end
-- ==== Proof.RefStages.lean ====
/-
  The reference's two dense stages are the specification's functions.

  Its row normalisation multiplies the matrix by itself, sums along the rows from zero, lays the sums out as a column,
  takes the square root, floors it at ε, spreads the column over the row and divides: entry (r, c) is
  u[r, c] / max (sqrt (Σ_k u[r, k]²)) ε, the zero the sum starts from adding nothing.  Its gate contracts each matrix
  with a transposed weight matrix, so entry (r, j) of a product is Σ_k a[r, k] · w[j, k]; the sigmoid is spelt
  1 / (1 + e^(-z)) with the literal one, which is the logistic function once the literal is read as the number 1.
  Both facts are about the operations applied to ANY matrices; the reference's stages are those operations applied to
  its earlier stages, which are never opened.
-/
import proofs.«136588_j26173530702193_2_alg».proof.Proof.RefReadP
import proofs.«136588_j26173530702193_2_alg».proof.Proof.Spec
import proofs.«136588_j26173530702193_2_alg».proof.Proof.LibRowSums
import proofs.«136588_j26173530702193_2_alg».proof.Proof.LibHostDot
import proofs.«136588_j26173530702193_2_alg».proof.Proof.LibTransposedProduct
import Idealize.ShloMosaic.Lib.IdealHost

set_option maxRecDepth 16384

noncomputable section

open scoped BigOperators

namespace Cert.RefStages

open Idealize.ShloMosaic Idealize.ShloMosaic.ValueIdx Cert.ReferenceIdeal Cert.ReferenceIdeal.Gen Cert.ReferenceIdeal.ReadP

/-- The host's square root reads, at an index, the square root of the operand there. -/
theorem hostSqrt_apply {s : Shape} {φ : FTy} (x : FVec Ideal s φ) (i : s.Idx) : Host.sqrt (F := Ideal) x i = Ideal.sqrt (x i) := rfl

/-- The host's exponential reads, at an index, the exponential of the operand there. -/
theorem hostExp_apply {s : Shape} {φ : FTy} (x : FVec Ideal s φ) (i : s.Idx) : Host.exp (F := Ideal) x i = Ideal.exp (x i) := rfl

/-- The host's negation reads, at an index, minus the operand there. -/
theorem hostNegf_apply {s : Shape} {φ : FTy} (x : FVec Ideal s φ) (i : s.Idx) : Host.negf (F := Ideal) x i = -(x i) := rfl

/-- The reference's normalising operations, applied to any matrix, give its row normalisation. -/
theorem normalize_ops (u : FVec Ideal S100000x64 .f32) :
    Host.divf (F := Ideal) u (broadcastInDim S100000x64 ![0, 1] bcast_S100000x1_S100000x64_0_1
      (maximumf (Host.sqrt (F := Ideal) (broadcastInDim S100000x1 ![0] bcast_S100000_S100000x1_0
          (Host.reduceAdd (F := Ideal) (mulf u u) (constant (F := Ideal) S_ .f32 0x00000000#32)
            reducesTo_S100000x64_S100000_d1 h_S_)))
        (broadcastInDim S100000x1 ![] bcast_S_S100000x1 (constant (F := Ideal) S_ .f32 0x322BCC77#32))))
      = Cert.Spec.rowNormalize (Ideal.ofBits .f32 0x322BCC77#32) u := by
  funext j
  obtain ⟨r, c, rfl⟩ : ∃ (r : Fin 100000) (c : Fin 64), j = ix2 r c := ⟨j 0, j 1, eq_ix2 j⟩
  rw [Cert.Spec.rowNormalize_apply, hostDivf_apply]
  refine congrArg (Ideal.div (u (ix2 r c))) ?_
  refine (Cert.LibRowSums.broadcastInDim_a1_ab_apply _ bcast_S100000x1_S100000x64_0_1 r c).trans ?_
  have hs := Cert.LibRowSums.hostRowSum_apply (mulf u u) (constant (F := Ideal) S_ .f32 0x00000000#32)
    reducesTo_S100000x64_S100000_d1 h_S_ (by decide) bcast_S100000_S100000x1_0 r (0 : Fin 1)
  have he := broadcastInDim_scalar_apply bcast_S_S100000x1 (constant (F := Ideal) S_ .f32 0x322BCC77#32) (ix2 r (0 : Fin 1))
  rw [maximumf_apply, hostSqrt_apply, hs, he, constant_apply, constant_apply, Ideal.ofBits_zero_f32, zero_add]
  simp only [mulf_apply]
  rfl

/-- The literal one spread over the matrix. -/
abbrev ones : FVec Ideal S100000x64 .f32 :=
  broadcastInDim S100000x64 ![] bcast_S_S100000x64 (constant (F := Ideal) S_ .f32 0x3F800000#32)

/-- The reference's logits: each matrix contracted with a transposed weight matrix, added. -/
abbrev hostLogits (a s : FVec Ideal S100000x64 .f32) (w1 w2 : FVec Ideal S64x64 .f32) : FVec Ideal S100000x64 .f32 :=
  addf (Host.dotGeneral (F := Ideal) dot_S100000x64_S64x64_S100000x64_1_0_0_1_n_n none a
      (transpose S64x64 [1, 0] w1 transposes_S64x64_S64x64_1_0))
    (Host.dotGeneral (F := Ideal) dot_S100000x64_S64x64_S100000x64_1_0_0_1_n_n none s
      (transpose S64x64 [1, 0] w2 transposes_S64x64_S64x64_1_0))

/-- The reference's gating operations, applied to any matrices, give their gated blend. -/
theorem gate_ops (a s : FVec Ideal S100000x64 .f32) (w1 w2 : FVec Ideal S64x64 .f32) :
    addf (mulf (Host.divf (F := Ideal) ones (addf ones (Host.exp (F := Ideal) (Host.negf (F := Ideal) (hostLogits a s w1 w2))))) s)
      (mulf (subf ones (Host.divf (F := Ideal) ones (addf ones (Host.exp (F := Ideal) (Host.negf (F := Ideal) (hostLogits a s w1 w2)))))) a)
      = Cert.Spec.gate a s w1 w2 := by
  funext j
  obtain ⟨r, c, rfl⟩ : ∃ (r : Fin 100000) (c : Fin 64), j = ix2 r c := ⟨j 0, j 1, eq_ix2 j⟩
  rw [Cert.Spec.gate_apply]
  have d1 : Host.dotGeneral (F := Ideal) dot_S100000x64_S64x64_S100000x64_1_0_0_1_n_n none a
      (transpose S64x64 [1, 0] w1 transposes_S64x64_S64x64_1_0) (ix2 r c) = ∑ k : Fin 64, a (ix2 r k) * w1 (ix2 c k) := by
    refine (Cert.LibHostDot.plain_dotGeneral_apply (A := 100000) (K := 64) (B := 64) none .single a _ r c).trans ?_
    exact Finset.sum_congr rfl fun k _ => by rw [Cert.LibTransposedProduct.transpose_swap_apply]
  have d2 : Host.dotGeneral (F := Ideal) dot_S100000x64_S64x64_S100000x64_1_0_0_1_n_n none s
      (transpose S64x64 [1, 0] w2 transposes_S64x64_S64x64_1_0) (ix2 r c) = ∑ k : Fin 64, s (ix2 r k) * w2 (ix2 c k) := by
    refine (Cert.LibHostDot.plain_dotGeneral_apply (A := 100000) (K := 64) (B := 64) none .single s _ r c).trans ?_
    exact Finset.sum_congr rfl fun k _ => by rw [Cert.LibTransposedProduct.transpose_swap_apply]
  have h1 : ones (ix2 r c) = (1 : EReal) :=
    (broadcastInDim_scalar_apply bcast_S_S100000x64 (constant (F := Ideal) S_ .f32 0x3F800000#32) (ix2 r c)).trans
      Ideal.ofBits_one_f32
  have hz : hostLogits a s w1 w2 (ix2 r c) = Cert.Spec.logit a s w1 w2 r c :=
    (addf_apply _ _ (ix2 r c)).trans (congrArg₂ (· + ·) d1 d2)
  rw [addf_apply, mulf_apply, mulf_apply, subf_apply, hostDivf_apply, addf_apply, hostExp_apply, hostNegf_apply, hz, h1]
  rfl

variable (x0 : (⟨S100000x64, .f32⟩ : BufTy).Contents (Elt Ideal)) (x1 : (⟨S200000x64, .f32⟩ : BufTy).Contents (Elt Ideal))
  (x2 x3 : (⟨S64x64, .f32⟩ : BufTy).Contents (Elt Ideal)) (x4 x5 : (⟨S1600000, .i32⟩ : BufTy).Contents (Elt Ideal))
  (x6 : (⟨S1600000, .f32⟩ : BufTy).Contents (Elt Ideal)) (x7 x8 : (⟨S2000000, .i32⟩ : BufTy).Contents (Elt Ideal))
  (x9 : (⟨S2000000, .f32⟩ : BufTy).Contents (Elt Ideal))

/-- The normalised matrix the reference gathers from is the row normalisation of its scattered sum. -/
theorem normalize_eq :
    val_main_v17 (F := Ideal) x0 x4 x5 x6
      = Cert.Spec.rowNormalize (Ideal.ofBits .f32 0x322BCC77#32) (val_main_v12 (F := Ideal) x0 x4 x5 x6) := by
  unfold val_main_v17 val_main_v16 val_main_v15 val_main_v14 val_main_cst_1 val_main_v13 val_main_call0_v2
    val_main_call0_v1 val_main_call0_cst val_main_call0_v0
  exact normalize_ops _

/-- The reference's first result is the gated blend of its propagated user rows and its social view. -/
theorem gate_eq :
    val_main_v155 (F := Ideal) x0 x1 x2 x3 x4 x5 x6 x7 x8 x9
      = Cert.Spec.gate (val_main_v138 (F := Ideal) x0 x1 x4 x5 x6 x7 x8 x9) (val_main_v105 (F := Ideal) x0 x4 x5 x6) x2 x3 := by
  unfold val_main_v155 val_main_v154 val_main_v153 val_main_v152 val_main_cst_40 val_main_v151 val_main_v150 val_main_v149
    val_main_cst_39 val_main_v148 val_main_v147 val_main_cst_38 val_main_v146 val_main_v145 val_main_v144 val_main_v143
    val_main_v142 val_main_v141 val_main_v140
  exact gate_ops _ _ _ _

end Cert.RefStages

end
-- ==== Proof.KernelValue.lean ====
/-
  What the idealized kernel program computes, as the reference's stage functions of its arguments.

  Follow the buffer contents through the program.  At launch the arguments hold the launch memory.  The first host
  stretch leaves them alone and builds the scattered sum; the first call turns that into its row normalisation, which is
  the reference's normalised matrix; the host stretches between the calls, being the reference's operations, then build
  the reference's pruned weights, its social view and its propagated user and item rows; the second call blends the
  user rows and the social view with the two weight matrices, which is the reference's last stage.  Nothing on the
  way writes an argument.
-/
import proofs.«136588_j26173530702193_2_alg».proof.Proof.KernelRun
import proofs.«136588_j26173530702193_2_alg».proof.Proof.Region0
import proofs.«136588_j26173530702193_2_alg».proof.Proof.Region1
import proofs.«136588_j26173530702193_2_alg».proof.Proof.KernelMid
import proofs.«136588_j26173530702193_2_alg».proof.Proof.KernelTail
import proofs.«136588_j26173530702193_2_alg».proof.Proof.RefStages

set_option maxRecDepth 16384

noncomputable section

namespace Cert.KernelIdeal.Results

open Cert.KernelIdeal Cert.KernelIdeal.Gen Cert.KernelIdeal.HostChain
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- After the first call every argument buffer still holds its launch contents: the call's two arrays are not
    arguments, and the host stretch before it writes none. -/
theorem W2_arg (r : Ref sig .tc) (hr : r ∈ argRefs) :
    W2 m ρ c (Proc.devRef .tc r) = m ((c.tc : Thread nD τ).loc r) := by
  refine (W2_of_ne m ρ c r ?_).trans (head_keeps (W0 m ρ c) r hr)
  simp only [argRefs, List.mem_cons, List.not_mem_nil, or_false] at hr
  rcases hr with rfl | rfl | rfl | rfl | rfl | rfl | rfl | rfl | rfl | rfl <;> decide

/-- After the first call its result array is the reference's normalised matrix. -/
theorem W2_v13 :
    W2 m ρ c (Proc.devRef .tc main_v13) = Cert.ReferenceIdeal.ReadP.val_main_v17 (F := Ideal) (m ((c.tc : Thread nD τ).loc main_arg0)) (m ((c.tc : Thread nD τ).loc main_arg4)) (m ((c.tc : Thread nD τ).loc main_arg5)) (m ((c.tc : Thread nD τ).loc main_arg6)) := by
  refine (W2_arr m ρ c 1).trans ?_
  rw [Cert.KernelIdeal.Region0.final (V1 m ρ) c, Cert.RefStages.normalize_eq]
  refine congrArg (Cert.Spec.rowNormalize _) ?_
  show StableHlo.after (hostOps0 (F := Ideal)) (W0 m ρ c) (Proc.devRef .tc main_v12) = _
  exact head_v12 (W0 m ρ c)

/-- Before the last host stretch the arguments still hold their launch contents. -/
theorem W6_arg (r : Ref sig .tc) (hr : r ∈ argRefs) :
    W6 m ρ c (Proc.devRef .tc r) = m ((c.tc : Thread nD τ).loc r) :=
  (mid_keeps (W2 m ρ c) r hr).trans (W2_arg m ρ c r hr)

/-- Before the last host stretch the pruned edge weights are the reference's. -/
theorem W6_v41 :
    W6 m ρ c (Proc.devRef .tc main_v41) = Cert.ReferenceIdeal.ReadP.val_main_v45 (F := Ideal) (m ((c.tc : Thread nD τ).loc main_arg0)) (m ((c.tc : Thread nD τ).loc main_arg4)) (m ((c.tc : Thread nD τ).loc main_arg5)) (m ((c.tc : Thread nD τ).loc main_arg6)) := by
  have e0 := W2_arg m ρ c main_arg0 (by decide)
  have e4 := W2_arg m ρ c main_arg4 (by decide)
  have e5 := W2_arg m ρ c main_arg5 (by decide)
  have e6 := W2_arg m ρ c main_arg6 (by decide)
  have h := mid_v41 (W2 m ρ c) (by rw [e0, e4, e5, e6]; exact W2_v13 m ρ c)
  rw [e0, e4, e5, e6] at h
  exact h

/-- At the second call's entry the arguments still hold their launch contents. -/
theorem W7_arg (r : Ref sig .tc) (hr : r ∈ argRefs) :
    W7 m ρ c (Proc.devRef .tc r) = m ((c.tc : Thread nD τ).loc r) :=
  (tail_keeps (W6 m ρ c) r hr).trans (W6_arg m ρ c r hr)

/-- At the second call's entry the social view is the reference's. -/
theorem W7_v101 :
    W7 m ρ c (Proc.devRef .tc main_v101) = Cert.ReferenceIdeal.ReadP.val_main_v105 (F := Ideal) (m ((c.tc : Thread nD τ).loc main_arg0)) (m ((c.tc : Thread nD τ).loc main_arg4)) (m ((c.tc : Thread nD τ).loc main_arg5)) (m ((c.tc : Thread nD τ).loc main_arg6)) := by
  have e0 := W6_arg m ρ c main_arg0 (by decide)
  have e4 := W6_arg m ρ c main_arg4 (by decide)
  have e5 := W6_arg m ρ c main_arg5 (by decide)
  have e6 := W6_arg m ρ c main_arg6 (by decide)
  have h := tail_v101 (W6 m ρ c) (by rw [e0, e4, e5, e6]; exact W6_v41 m ρ c)
  rw [e0, e4, e5, e6] at h
  exact h

/-- At the second call's entry the propagated user rows are the reference's. -/
theorem W7_v134 :
    W7 m ρ c (Proc.devRef .tc main_v134) = Cert.ReferenceIdeal.ReadP.val_main_v138 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  have e0 := W6_arg m ρ c main_arg0 (by decide)
  have e1 := W6_arg m ρ c main_arg1 (by decide)
  have e4 := W6_arg m ρ c main_arg4 (by decide)
  have e5 := W6_arg m ρ c main_arg5 (by decide)
  have e6 := W6_arg m ρ c main_arg6 (by decide)
  have e7 := W6_arg m ρ c main_arg7 (by decide)
  have e8 := W6_arg m ρ c main_arg8 (by decide)
  have e9 := W6_arg m ρ c main_arg9 (by decide)
  have h := tail_v134 (W6 m ρ c) (by rw [e0, e4, e5, e6]; exact W6_v41 m ρ c)
  rw [e0, e1, e4, e5, e6, e7, e8, e9] at h
  exact h

/-- The program's second result, the propagated item rows, is the reference's. -/
theorem W7_v135 :
    W7 m ρ c (Proc.devRef .tc main_v135) = Cert.ReferenceIdeal.ReadP.val_main_v139 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  have e0 := W6_arg m ρ c main_arg0 (by decide)
  have e1 := W6_arg m ρ c main_arg1 (by decide)
  have e4 := W6_arg m ρ c main_arg4 (by decide)
  have e5 := W6_arg m ρ c main_arg5 (by decide)
  have e6 := W6_arg m ρ c main_arg6 (by decide)
  have e7 := W6_arg m ρ c main_arg7 (by decide)
  have e8 := W6_arg m ρ c main_arg8 (by decide)
  have e9 := W6_arg m ρ c main_arg9 (by decide)
  have h := tail_v135 (W6 m ρ c) (by rw [e0, e4, e5, e6]; exact W6_v41 m ρ c)
  rw [e0, e1, e4, e5, e6, e7, e8, e9] at h
  exact h

/-- The program's first result, the second call's output array, is the reference's last stage. -/
theorem result0 :
    (dat1 (V7 m ρ) c).arrAt 4 cfg1.N = Cert.ReferenceIdeal.ReadP.val_main_v155 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [Cert.KernelIdeal.Region1.final (V7 m ρ) c, Cert.RefStages.gate_eq]
  show Cert.Spec.gate (A := 100000) (D := 64) (W7 m ρ c (Proc.devRef .tc main_v134)) (W7 m ρ c (Proc.devRef .tc main_v101))
      (W7 m ρ c (Proc.devRef .tc main_arg2)) (W7 m ρ c (Proc.devRef .tc main_arg3)) = _
  rw [W7_v134 m ρ c, W7_v101 m ρ c, W7_arg m ρ c main_arg2 (by decide), W7_arg m ρ c main_arg3 (by decide)]

end Cert.KernelIdeal.Results

end
-- ==== Proof.RefParts.lean ====
/-
  The reference's line of operations, cut into five consecutive parts.

  The cuts fall after the scattered sum (16 operations), after its row normalisation (10 more), after the pruned edge
  weights (43 more), just before the item matrix is appended (77 more), and the rest (59).  Running the whole line
  is running the parts one after another, each from what the one before left.
-/
import proofs.«136588_j26173530702193_2_alg».proof.Proof.RefRunP
import proofs.«136588_j26173530702193_2_alg».proof.Proof.LibHostCut
import Idealize.ShloMosaic.PureOps.Ideal

set_option maxRecDepth 16384

noncomputable section

namespace Cert.ReferenceIdeal.Chain

open Cert.ReferenceIdeal Cert.ReferenceIdeal.Gen Cert.ReferenceIdeal.ValueP
open Idealize.ShloMosaic Idealize.ShloMosaic.StableHlo

/-- The ten argument buffers. -/
abbrev argRefs : List (Ref sig .tc) :=
  [main_arg0, main_arg1, main_arg2, main_arg3, main_arg4, main_arg5, main_arg6, main_arg7, main_arg8, main_arg9]

abbrev part0 : List (HloOp τ sig (Elt Ideal)) := ((((ops (F := Ideal)).take 146).take 69).take 26).take 16
abbrev part1 : List (HloOp τ sig (Elt Ideal)) := ((((ops (F := Ideal)).take 146).take 69).take 26).drop 16
abbrev part2 : List (HloOp τ sig (Elt Ideal)) := (((ops (F := Ideal)).take 146).take 69).drop 26
abbrev part3 : List (HloOp τ sig (Elt Ideal)) := ((ops (F := Ideal)).take 146).drop 69
abbrev part4 : List (HloOp τ sig (Elt Ideal)) := (ops (F := Ideal)).drop 146

/-- The whole line is its five parts in order. -/
theorem after_parts (V : Valuation τ sig (Elt Ideal)) :
    StableHlo.after (ops (F := Ideal)) V
      = StableHlo.after part4 (StableHlo.after part3 (StableHlo.after part2 (StableHlo.after part1 (StableHlo.after part0 V)))) := by
  rw [Cert.HostCut.after_cut 146 (ops (F := Ideal)) V, Cert.HostCut.after_cut 69 ((ops (F := Ideal)).take 146) V,
    Cert.HostCut.after_cut 26 (((ops (F := Ideal)).take 146).take 69) V,
    Cert.HostCut.after_cut 16 ((((ops (F := Ideal)).take 146).take 69).take 26) V]

end Cert.ReferenceIdeal.Chain

end
-- ==== Proof.RefChain0.lean ====
/-
  The reference's first three parts, each read from any contents.

  The first part builds the scattered sum from four arguments.  The second is the row normalisation: it reads only that
  sum.  The third gathers the normalised rows at both ends of every social edge, takes inner products, maps them to
  (sim + 1) / 2, thresholds and prunes: it reads the normalised matrix and the two index arguments.  In each case the
  buffer written last is the stage function of that name applied to what the part read, and no argument is written.
-/
import proofs.«136588_j26173530702193_2_alg».proof.Proof.RefParts
import proofs.«136588_j26173530702193_2_alg».proof.Proof.RefReadP

set_option maxRecDepth 16384

noncomputable section

namespace Cert.ReferenceIdeal.Chain

open Cert.ReferenceIdeal Cert.ReferenceIdeal.Gen Cert.ReferenceIdeal.ValueP Cert.ReferenceIdeal.ReadP
open Idealize.ShloMosaic Idealize.ShloMosaic.StableHlo

variable (W : Valuation τ sig (Elt Ideal))
  (x0 : (⟨S100000x64, .f32⟩ : BufTy).Contents (Elt Ideal)) (x1 : (⟨S200000x64, .f32⟩ : BufTy).Contents (Elt Ideal))
  (x2 x3 : (⟨S64x64, .f32⟩ : BufTy).Contents (Elt Ideal)) (x4 x5 : (⟨S1600000, .i32⟩ : BufTy).Contents (Elt Ideal))
  (x6 : (⟨S1600000, .f32⟩ : BufTy).Contents (Elt Ideal)) (x7 x8 : (⟨S2000000, .i32⟩ : BufTy).Contents (Elt Ideal))
  (x9 : (⟨S2000000, .f32⟩ : BufTy).Contents (Elt Ideal))

set_option maxHeartbeats 100000000 in
/-- The scattered sum, from any contents. -/
theorem part0_v12 (V : Valuation τ sig (Elt Ideal)) :
    StableHlo.after part0 V (Proc.devRef .tc main_v12) = val_main_v12 (F := Ideal) (V (Proc.devRef .tc main_arg0)) (V (Proc.devRef .tc main_arg4)) (V (Proc.devRef .tc main_arg5)) (V (Proc.devRef .tc main_arg6)) := by
  dsimp only [part0, ops, List.take]
  after_results_simp
  rfl

set_option maxHeartbeats 200000000 in
/-- The first part writes no argument. -/
theorem part0_keeps (W : Valuation τ sig (Elt Ideal)) (r : Ref sig .tc) (hr : r ∈ argRefs) :
    StableHlo.after part0 W (Proc.devRef .tc r) = W (Proc.devRef .tc r) := by
  simp only [argRefs, List.mem_cons, List.not_mem_nil, or_false] at hr
  rcases hr with rfl | rfl | rfl | rfl | rfl | rfl | rfl | rfl | rfl | rfl <;>
    (dsimp only [part0, ops, List.take, List.drop]; after_results_simp)

set_option maxHeartbeats 100000000 in
/-- The normalised matrix, from contents holding the scattered sum. -/
theorem part1_v17 (h12 : W (Proc.devRef .tc main_v12) = val_main_v12 (F := Ideal) x0 x4 x5 x6) :
    StableHlo.after part1 W (Proc.devRef .tc main_v17) = val_main_v17 (F := Ideal) x0 x4 x5 x6 := by
  dsimp only [part1, ops, List.take, List.drop]
  after_results_simp
  try simp only [TRef.toBuf, TRef.ofBuf]
  repeat rw [cast_eq]
  simp only [h12]
  rfl

set_option maxHeartbeats 200000000 in
/-- The second part writes no argument. -/
theorem part1_keeps (W : Valuation τ sig (Elt Ideal)) (r : Ref sig .tc) (hr : r ∈ argRefs) :
    StableHlo.after part1 W (Proc.devRef .tc r) = W (Proc.devRef .tc r) := by
  simp only [argRefs, List.mem_cons, List.not_mem_nil, or_false] at hr
  rcases hr with rfl | rfl | rfl | rfl | rfl | rfl | rfl | rfl | rfl | rfl <;>
    (dsimp only [part1, ops, List.take, List.drop]; after_results_simp)

set_option maxHeartbeats 200000000 in
/-- The pruned edge weights, from contents holding the normalised matrix and the two index arguments. -/
theorem part2_v45 (h17 : W (Proc.devRef .tc main_v17) = val_main_v17 (F := Ideal) x0 x4 x5 x6)
    (h4 : W (Proc.devRef .tc main_arg4) = x4) (h5 : W (Proc.devRef .tc main_arg5) = x5) :
    StableHlo.after part2 W (Proc.devRef .tc main_v45) = val_main_v45 (F := Ideal) x0 x4 x5 x6 := by
  dsimp only [part2, ops, List.take, List.drop]
  after_results_simp
  try simp only [TRef.toBuf, TRef.ofBuf]
  repeat rw [cast_eq]
  simp only [h17, h4, h5]
  rfl

set_option maxHeartbeats 200000000 in
/-- The third part writes no argument. -/
theorem part2_keeps (W : Valuation τ sig (Elt Ideal)) (r : Ref sig .tc) (hr : r ∈ argRefs) :
    StableHlo.after part2 W (Proc.devRef .tc r) = W (Proc.devRef .tc r) := by
  simp only [argRefs, List.mem_cons, List.not_mem_nil, or_false] at hr
  rcases hr with rfl | rfl | rfl | rfl | rfl | rfl | rfl | rfl | rfl | rfl <;>
    (dsimp only [part2, ops, List.take, List.drop]; after_results_simp)

end Cert.ReferenceIdeal.Chain

end
-- ==== Proof.RefChain1.lean ====
/-
  The reference's fourth part, read from any contents.

  From the pruned edge weights it forms the degree-normalised weights, runs three rounds of the social sparse product
  on the user matrix, averages them into the social view and adds that to the user matrix.  It reads the pruned weights,
  the user matrix and the two index arguments.  The social view and the summed matrix are the stage functions of those
  names, and no argument is written.
-/
import proofs.«136588_j26173530702193_2_alg».proof.Proof.RefParts
import proofs.«136588_j26173530702193_2_alg».proof.Proof.RefReadP

set_option maxRecDepth 16384

noncomputable section

namespace Cert.ReferenceIdeal.Chain

open Cert.ReferenceIdeal Cert.ReferenceIdeal.Gen Cert.ReferenceIdeal.ValueP Cert.ReferenceIdeal.ReadP
open Idealize.ShloMosaic Idealize.ShloMosaic.StableHlo

section Values
variable (W : Valuation τ sig (Elt Ideal))
  (x0 : (⟨S100000x64, .f32⟩ : BufTy).Contents (Elt Ideal)) (x1 : (⟨S200000x64, .f32⟩ : BufTy).Contents (Elt Ideal))
  (x2 x3 : (⟨S64x64, .f32⟩ : BufTy).Contents (Elt Ideal)) (x4 x5 : (⟨S1600000, .i32⟩ : BufTy).Contents (Elt Ideal))
  (x6 : (⟨S1600000, .f32⟩ : BufTy).Contents (Elt Ideal)) (x7 x8 : (⟨S2000000, .i32⟩ : BufTy).Contents (Elt Ideal))
  (x9 : (⟨S2000000, .f32⟩ : BufTy).Contents (Elt Ideal))
  (h45 : W (Proc.devRef .tc main_v45) = val_main_v45 (F := Ideal) x0 x4 x5 x6)
  (h0 : W (Proc.devRef .tc main_arg0) = x0) (h4 : W (Proc.devRef .tc main_arg4) = x4) (h5 : W (Proc.devRef .tc main_arg5) = x5)

include h45 h0 h4 h5

set_option maxHeartbeats 200000000 in
/-- The social view. -/
theorem part3_v105 :
    StableHlo.after part3 W (Proc.devRef .tc main_v105) = val_main_v105 (F := Ideal) x0 x4 x5 x6 := by
  dsimp only [part3, ops, List.take, List.drop]
  after_results_simp
  simp only [h45, h0, h4, h5]
  rfl

set_option maxHeartbeats 200000000 in
/-- The user matrix with the social view added. -/
theorem part3_v106 :
    StableHlo.after part3 W (Proc.devRef .tc main_v106) = val_main_v106 (F := Ideal) x0 x4 x5 x6 := by
  dsimp only [part3, ops, List.take, List.drop]
  after_results_simp
  simp only [h45, h0, h4, h5]
  rfl

end Values

set_option maxHeartbeats 200000000 in
/-- The fourth part writes no argument. -/
theorem part3_keeps (W : Valuation τ sig (Elt Ideal)) (r : Ref sig .tc) (hr : r ∈ argRefs) :
    StableHlo.after part3 W (Proc.devRef .tc r) = W (Proc.devRef .tc r) := by
  simp only [argRefs, List.mem_cons, List.not_mem_nil, or_false] at hr
  rcases hr with rfl | rfl | rfl | rfl | rfl | rfl | rfl | rfl | rfl | rfl <;>
    (dsimp only [part3, ops, List.take, List.drop]; after_results_simp)

end Cert.ReferenceIdeal.Chain

end
-- ==== Proof.RefChain2.lean ====
/-
  The reference's last part, read from any contents.

  It appends the item matrix to the summed user matrix, runs two rounds of the joint sparse product, averages, cuts the
  result into user rows and item rows, and blends the user rows with the social view through the gate.  It reads the
  summed matrix, the social view, the item matrix, the two weight matrices and the joint graph's three arguments.  The
  two results are the stage functions of their names, and no argument is written.
-/
import proofs.«136588_j26173530702193_2_alg».proof.Proof.RefParts
import proofs.«136588_j26173530702193_2_alg».proof.Proof.RefReadP

set_option maxRecDepth 16384

noncomputable section

namespace Cert.ReferenceIdeal.Chain

open Cert.ReferenceIdeal Cert.ReferenceIdeal.Gen Cert.ReferenceIdeal.ValueP Cert.ReferenceIdeal.ReadP
open Idealize.ShloMosaic Idealize.ShloMosaic.StableHlo

section Values
variable (W : Valuation τ sig (Elt Ideal))
  (x0 : (⟨S100000x64, .f32⟩ : BufTy).Contents (Elt Ideal)) (x1 : (⟨S200000x64, .f32⟩ : BufTy).Contents (Elt Ideal))
  (x2 x3 : (⟨S64x64, .f32⟩ : BufTy).Contents (Elt Ideal)) (x4 x5 : (⟨S1600000, .i32⟩ : BufTy).Contents (Elt Ideal))
  (x6 : (⟨S1600000, .f32⟩ : BufTy).Contents (Elt Ideal)) (x7 x8 : (⟨S2000000, .i32⟩ : BufTy).Contents (Elt Ideal))
  (x9 : (⟨S2000000, .f32⟩ : BufTy).Contents (Elt Ideal))
  (h106 : W (Proc.devRef .tc main_v106) = val_main_v106 (F := Ideal) x0 x4 x5 x6)
  (h105 : W (Proc.devRef .tc main_v105) = val_main_v105 (F := Ideal) x0 x4 x5 x6)
  (h1 : W (Proc.devRef .tc main_arg1) = x1) (h2 : W (Proc.devRef .tc main_arg2) = x2) (h3 : W (Proc.devRef .tc main_arg3) = x3)
  (h7 : W (Proc.devRef .tc main_arg7) = x7) (h8 : W (Proc.devRef .tc main_arg8) = x8) (h9 : W (Proc.devRef .tc main_arg9) = x9)

include h106 h105 h1 h2 h3 h7 h8 h9

set_option maxHeartbeats 200000000 in
/-- The blended user rows. -/
theorem part4_v155 :
    StableHlo.after part4 W (Proc.devRef .tc main_v155) = val_main_v155 (F := Ideal) x0 x1 x2 x3 x4 x5 x6 x7 x8 x9 := by
  dsimp only [part4, ops, List.drop]
  after_results_simp
  rw [h106, h1]
  simp only [h105, h2, h3, h7, h8, h9]
  rfl

omit h105 h2 h3 in
set_option maxHeartbeats 200000000 in
/-- The propagated item rows. -/
theorem part4_v139 :
    StableHlo.after part4 W (Proc.devRef .tc main_v139) = val_main_v139 (F := Ideal) x0 x1 x4 x5 x6 x7 x8 x9 := by
  dsimp only [part4, ops, List.drop]
  after_results_simp
  rw [h106, h1]
  simp only [h7, h8, h9]
  rfl

end Values

set_option maxHeartbeats 200000000 in
/-- The last part writes no argument. -/
theorem part4_keeps (W : Valuation τ sig (Elt Ideal)) (r : Ref sig .tc) (hr : r ∈ argRefs) :
    StableHlo.after part4 W (Proc.devRef .tc r) = W (Proc.devRef .tc r) := by
  simp only [argRefs, List.mem_cons, List.not_mem_nil, or_false] at hr
  rcases hr with rfl | rfl | rfl | rfl | rfl | rfl | rfl | rfl | rfl | rfl <;>
    (dsimp only [part4, ops, List.take, List.drop]; after_results_simp)

end Cert.ReferenceIdeal.Chain

end
-- ==== Proof.RefRun.lean ====
/-
  The reference's run, with its two results as stage functions of the launch contents.

  Chain the five parts: the scattered sum feeds the normalisation, that feeds the pruned weights, those feed the
  social view and the summed user matrix, and those feed the two results; no part writes an argument, so every part
  reads the arguments as launched.  Every weakly fair execution of the reference terminates with every buffer at the
  fold of its operations over the launch contents; the two result buffers are then the last stage functions of the ten
  arguments as launched, and the arguments are as launched.
-/
import proofs.«136588_j26173530702193_2_alg».proof.Proof.RefChain0
import proofs.«136588_j26173530702193_2_alg».proof.Proof.RefChain1
import proofs.«136588_j26173530702193_2_alg».proof.Proof.RefChain2

set_option maxRecDepth 16384

noncomputable section

namespace Cert.ReferenceIdeal.Chain

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable (V : Valuation τ sig (Elt Ideal))

/-- The contents after the first part, the first two, three, four. -/
abbrev W1 : Valuation τ sig (Elt Ideal) := StableHlo.after part0 V
abbrev W2 : Valuation τ sig (Elt Ideal) := StableHlo.after part1 (W1 V)
abbrev W3 : Valuation τ sig (Elt Ideal) := StableHlo.after part2 (W2 V)
abbrev W4 : Valuation τ sig (Elt Ideal) := StableHlo.after part3 (W3 V)

theorem W1_arg (r : Ref sig .tc) (hr : r ∈ argRefs) : W1 V (Proc.devRef .tc r) = V (Proc.devRef .tc r) := part0_keeps V r hr
theorem W2_arg (r : Ref sig .tc) (hr : r ∈ argRefs) : W2 V (Proc.devRef .tc r) = V (Proc.devRef .tc r) :=
  (part1_keeps (W1 V) r hr).trans (W1_arg V r hr)
theorem W3_arg (r : Ref sig .tc) (hr : r ∈ argRefs) : W3 V (Proc.devRef .tc r) = V (Proc.devRef .tc r) :=
  (part2_keeps (W2 V) r hr).trans (W2_arg V r hr)
theorem W4_arg (r : Ref sig .tc) (hr : r ∈ argRefs) : W4 V (Proc.devRef .tc r) = V (Proc.devRef .tc r) :=
  (part3_keeps (W3 V) r hr).trans (W3_arg V r hr)

theorem W2_v17 : W2 V (Proc.devRef .tc main_v17) = val_main_v17 (F := Ideal) (V (Proc.devRef .tc main_arg0)) (V (Proc.devRef .tc main_arg4)) (V (Proc.devRef .tc main_arg5)) (V (Proc.devRef .tc main_arg6)) :=
  part1_v17 (W1 V) _ _ _ _ (part0_v12 V)

theorem W3_v45 : W3 V (Proc.devRef .tc main_v45) = val_main_v45 (F := Ideal) (V (Proc.devRef .tc main_arg0)) (V (Proc.devRef .tc main_arg4)) (V (Proc.devRef .tc main_arg5)) (V (Proc.devRef .tc main_arg6)) :=
  part2_v45 (W2 V) _ _ _ _ (W2_v17 V) (W2_arg V main_arg4 (by decide)) (W2_arg V main_arg5 (by decide))

theorem W4_v105 : W4 V (Proc.devRef .tc main_v105) = val_main_v105 (F := Ideal) (V (Proc.devRef .tc main_arg0)) (V (Proc.devRef .tc main_arg4)) (V (Proc.devRef .tc main_arg5)) (V (Proc.devRef .tc main_arg6)) :=
  part3_v105 (W3 V) _ _ _ _ (W3_v45 V) (W3_arg V main_arg0 (by decide)) (W3_arg V main_arg4 (by decide)) (W3_arg V main_arg5 (by decide))

theorem W4_v106 : W4 V (Proc.devRef .tc main_v106) = val_main_v106 (F := Ideal) (V (Proc.devRef .tc main_arg0)) (V (Proc.devRef .tc main_arg4)) (V (Proc.devRef .tc main_arg5)) (V (Proc.devRef .tc main_arg6)) :=
  part3_v106 (W3 V) _ _ _ _ (W3_v45 V) (W3_arg V main_arg0 (by decide)) (W3_arg V main_arg4 (by decide)) (W3_arg V main_arg5 (by decide))

/-- The blended user rows: the stage of the reference's last operation, of the arguments. -/
theorem res0 :
    StableHlo.after (ops (F := Ideal)) V (Proc.devRef .tc main_v155)
      = val_main_v155 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  rw [after_parts]
  exact part4_v155 (W4 V) _ _ _ _ _ _ _ _ _ _ (W4_v106 V) (W4_v105 V) (W4_arg V main_arg1 (by decide))
    (W4_arg V main_arg2 (by decide)) (W4_arg V main_arg3 (by decide)) (W4_arg V main_arg7 (by decide))
    (W4_arg V main_arg8 (by decide)) (W4_arg V main_arg9 (by decide))

/-- The propagated item rows: the stage of the second slice, of the arguments. -/
theorem res1 :
    StableHlo.after (ops (F := Ideal)) V (Proc.devRef .tc main_v139)
      = val_main_v139 (F := Ideal) (V (Proc.devRef .tc main_arg0)) (V (Proc.devRef .tc main_arg1)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  rw [after_parts]
  exact part4_v139 (W4 V) _ _ _ _ _ _ _ _ (W4_v106 V) (W4_arg V main_arg1 (by decide))
    (W4_arg V main_arg7 (by decide)) (W4_arg V main_arg8 (by decide)) (W4_arg V main_arg9 (by decide))

/-- No operation writes an argument. -/
theorem keeps (r : Ref sig .tc) (hr : r ∈ argRefs) :
    StableHlo.after (ops (F := Ideal)) V (Proc.devRef .tc r) = V (Proc.devRef .tc r) := by
  rw [after_parts]
  exact (part4_keeps (W4 V) r hr).trans (W4_arg V r hr)

/-- The reference terminates with its results at their stage functions of the arguments, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v155)
          = val_main_v155 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v139)
          = val_main_v139 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
    ⟨(h c main_v155).trans (res0 (launchContents m c)),
     (h c main_v139).trans (res1 (launchContents m c)),
     (h c main_arg0).trans (keeps (launchContents m c) main_arg0 (by decide)),
     (h c main_arg1).trans (keeps (launchContents m c) main_arg1 (by decide)),
     (h c main_arg2).trans (keeps (launchContents m c) main_arg2 (by decide)),
     (h c main_arg3).trans (keeps (launchContents m c) main_arg3 (by decide)),
     (h c main_arg4).trans (keeps (launchContents m c) main_arg4 (by decide)),
     (h c main_arg5).trans (keeps (launchContents m c) main_arg5 (by decide)),
     (h c main_arg6).trans (keeps (launchContents m c) main_arg6 (by decide)),
     (h c main_arg7).trans (keeps (launchContents m c) main_arg7 (by decide)),
     (h c main_arg8).trans (keeps (launchContents m c) main_arg8 (by decide)),
     (h c main_arg9).trans (keeps (launchContents m c) main_arg9 (by decide))⟩)
    (run_after m ρ)

end Cert.ReferenceIdeal.Chain

end
-- ==== Proof.lean ====
/-
  The kernel and its reference compute the same two arrays over the extended reals.

  The program under proof is a graph encoder: a sparse product of the user matrix with the social graph; a row-wise
  normalisation x[r, c] / max (sqrt (Σ_k x[r, k]²)) ε of the result (a Pallas call); cosine similarities along the
  social edges, a threshold, pruned and degree-normalised edge weights; three rounds of social propagation averaged;
  two rounds of propagation on the joint user-item graph averaged and cut into user rows and item rows; and a gated
  blend g · s + (1 - g) · a, g the logistic of a · w1ᵀ + s · w2ᵀ, of the user rows a and the social view s (a second
  Pallas call).  The reference does the same in plain array operations.

  Everything outside the two calls is the same list of operations in both programs, so it is never opened: it is
  carried as the reference's stage functions.  What is proved is that each call's result array is the specification's
  function of the arrays it was entered with (the ten, resp. twenty, row blocks are bands of rows of one whole-array
  function, and they tile the array), and that the reference's corresponding stages are the same functions: a lane sum
  against a host sum, a product against a transposed matrix accumulated into zero against a host contraction, the
  logistic function against 1 / (1 + e^(-z)), a change of float format being the identity.  No step needs an entry to
  be finite: the two sides apply the same operations in the same order.  The three frames are the generated frame
  proofs (the reference's is its run with the results dropped), and the idealisation rewrote nothing.
-/
import proofs.«136588_j26173530702193_2_alg».proof.Defs
import proofs.«136588_j26173530702193_2_alg».proof.Proof.Gen.Kernel
import proofs.«136588_j26173530702193_2_alg».proof.Proof.Gen.Kernel.Frame
import proofs.«136588_j26173530702193_2_alg».proof.Proof.Gen.KernelIdeal
import proofs.«136588_j26173530702193_2_alg».proof.Proof.Gen.KernelIdeal.Frame
import proofs.«136588_j26173530702193_2_alg».proof.Proof.Gen.ReferenceIdeal
import proofs.«136588_j26173530702193_2_alg».proof.Proof.Gen.Pre_finite_inputs
import proofs.«136588_j26173530702193_2_alg».proof.Proof.KernelValue
import proofs.«136588_j26173530702193_2_alg».proof.Proof.RefRun
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Chain.run m ρ)

/-- The idealisation rewrote no operation of the kernel. -/
theorem preserves : Cert.preserves_Kernel_KernelIdeal := trivial

/-- From memories agreeing on the arguments both programs end with the reference's two last stage functions of those
    arguments in their result buffers. -/
theorem algebraic : Cert.algebraic_KernelIdeal_ReferenceIdeal := by
  intro m ρ m' ρ' _ hagree
  refine ⟨fun c => Cert.ReferenceIdeal.ReadP.val_main_v155 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.ReferenceIdeal.ReadP.val_main_v139 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · refine (θ_run Cert.KernelIdeal.defs _ _).mono (fun r h c => ?_) (Cert.KernelIdeal.RunValues.run_results (F := Ideal) m ρ)
    obtain ⟨h0, h1, hargs⟩ := h c
    exact ⟨h0.trans (Cert.KernelIdeal.Results.result0 m ρ c), h1.trans (Cert.KernelIdeal.Results.W7_v135 m ρ c), hargs⟩
  · refine (θ_run Cert.ReferenceIdeal.defs _ _).mono (fun r h c => ?_) (Cert.ReferenceIdeal.Chain.run m' ρ')
    obtain ⟨h0, h1, hargs⟩ := h c
    obtain ⟨a0, a1, a2, a3, a4, a5, a6, a7, a8, a9⟩ := hagree c
    refine ⟨?_, ?_, hargs⟩
    · rw [h0, a0, a1, a2, a3, a4, a5, a6, a7, a8, a9]
    · rw [h1, a0, a1, a4, a5, a6, a7, a8, a9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
